-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10x1024 : Shape := ⟨3, ![8192, 10, 1024]⟩
abbrev S1x10x1024 : Shape := ⟨3, ![1, 10, 1024]⟩
abbrev S1024x1024 : Shape := ⟨2, ![1024, 1024]⟩
abbrev S1024 : Shape := ⟨1, ![1024]⟩
abbrev S_ : Shape := ⟨0, ![]⟩

class Facts : Prop where
  bcast_S_S8192x10x1024 : S_.BroadcastsInDim S8192x10x1024 (![] : Fin 0 → Fin S8192x10x1024.rank)
  reducesTo_S8192x10x1024_S_d0_1_2 : S8192x10x1024.ReducesTo [0, 1, 2] S_
  h_S_ : 0 < S_.numel
  bcast_S_S1x10x1024 : S_.BroadcastsInDim S1x10x1024 (![] : Fin 0 → Fin S1x10x1024.rank)
  reducesTo_S1x10x1024_S_d0_1_2 : S1x10x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x10x1024 .f32) (main_arg1 : FVec F S1x10x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024 .f32) (main_arg9 : FVec F S1024 .f32) : IVec S_ 1 :=
  let main_v0 : FVec F S8192x10x1024 .f32 := Host.absf main_arg0
  let main_cst : FVec F S_ .f32 := constant S_ .f32 0x7F800000#32
  let main_v1 : FVec F S8192x10x1024 .f32 := broadcastInDim S8192x10x1024 ![] bcast_S_S8192x10x1024 main_cst
  let main_v2 : IVec S8192x10x1024 1 := cmpf .olt main_v0 main_v1
  let main_c : IVec S_ 1 := constantI S_ 1 1#1
  let main_v3 : IVec S_ 1 := (fun x v => Host.reduce IntOp.andi x v reducesTo_S8192x10x1024_S_d0_1_2 h_S_) main_v2 main_c
  let main_v4 : FVec F S1x10x1024 .f32 := Host.absf main_arg1
  let main_cst_0 : FVec F S_ .f32 := constant S_ .f32 0x7F800000#32
  let main_v5 : FVec F S1x10x1024 .f32 := broadcastInDim S1x10x1024 ![] bcast_S_S1x10x1024 main_cst_0
  let main_v6 : IVec S1x10x1024 1 := cmpf .olt main_v4 main_v5
  let main_c_1 : IVec S_ 1 := constantI S_ 1 1#1
  let main_v7 : IVec S_ 1 := (fun x v => Host.reduce IntOp.andi x v reducesTo_S1x10x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S8192x10x1024 : Shape := ⟨3, ![8192, 10, 1024]⟩
abbrev S1x10x1024 : Shape := ⟨3, ![1, 10, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S81920x1024 : Shape := ⟨2, ![81920, 1024]⟩
abbrev S8192x10x10 : Shape := ⟨3, ![8192, 10, 10]⟩
abbrev S640x1024 : Shape := ⟨2, ![640, 1024]⟩
abbrev S64x10x10 : Shape := ⟨3, ![64, 10, 10]⟩
abbrev S64x10x1024 : Shape := ⟨3, ![64, 10, 1024]⟩
abbrev S640x3072 : Shape := ⟨2, ![640, 3072]⟩
abbrev S1x3072 : Shape := ⟨2, ![1, 3072]⟩
abbrev S64x10 : Shape := ⟨2, ![64, 10]⟩
abbrev S64x10x1 : Shape := ⟨3, ![64, 10, 1]⟩
abbrev S1x1x1024 : Shape := ⟨3, ![1, 1, 1024]⟩

abbrev nBuf : Space → Nat
  | .hbm => 20
  | .vmem => 11
  | .smem => 0
  | _ => 0

abbrev bufTy : (tb : Table) → Fin (tcTables nBuf tb) → BufTy
  | .hbm, ⟨0, _⟩ => ⟨S8192x10x1024, .f32⟩
  | .hbm, ⟨1, _⟩ => ⟨S1x10x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S81920x1024, .f32⟩
  | .hbm, ⟨17, _⟩ => ⟨S81920x1024, .f32⟩
  | .hbm, ⟨18, _⟩ => ⟨S8192x10x10, .f32⟩
  | .hbm, ⟨19, _⟩ => ⟨S8192x10x1024, .f32⟩
  | .local _ .vmem, ⟨0, _⟩ => ⟨S640x1024, .f32⟩
  | .local _ .vmem, ⟨1, _⟩ => ⟨S640x1024, .f32⟩
  | .local _ .vmem, ⟨2, _⟩ => ⟨S1x10x1024, .f32⟩
  | .local _ .vmem, ⟨3, _⟩ => ⟨S1024x3072, .bf16⟩
  | .local _ .vmem, ⟨4, _⟩ => ⟨S3072, .f32⟩
  | .local _ .vmem, ⟨5, _⟩ => ⟨S1024, .f32⟩
  | .local _ .vmem, ⟨6, _⟩ => ⟨S1024, .f32⟩
  | .local _ .vmem, ⟨7, _⟩ => ⟨S640x1024, .f32⟩
  | .local _ .vmem, ⟨8, _⟩ => ⟨S640x1024, .f32⟩
  | .local _ .vmem, ⟨9, _⟩ => ⟨S64x10x10, .f32⟩
  | .local _ .vmem, ⟨10, _⟩ => ⟨S64x10x10, .f32⟩
  | _, _ => ⟨S8192x10x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x10x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S8192x10x1024_S81920x1024 : S8192x10x1024.ShapeCasts S81920x1024
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  shapeCasts_S640x1024_S64x10x1024 : S640x1024.ShapeCasts S64x10x1024
  inb_S1x10x1024_S1x10x1024_0_0_0 : ∀ a, (![0, 0, 0] : Fin 3 → Nat) a + S1x10x1024.size a ≤ S1x10x1024.size a
  h_S1x10x1024 : 0 < S1x10x1024.numel
  broadcasts_S1x10x1024_S64x10x1024 : S1x10x1024.Broadcasts S64x10x1024
  shapeCasts_S64x10x1024_S640x1024 : S64x10x1024.ShapeCasts S640x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S640x3072 : S1x3072.Broadcasts S640x3072
  slices_S640x3072_o0_0_S640x1024 : S640x3072.Slices ![0, 0] S640x1024
  slices_S640x3072_o0_1024_S640x1024 : S640x3072.Slices ![0, 1024] S640x1024
  slices_S640x3072_o0_2048_S640x1024 : S640x3072.Slices ![0, 2048] S640x1024
  reduces_S64x10x10_S64x10 : S64x10x10.Reduces [2] S64x10
  shapeCasts_S64x10_S64x10x1 : S64x10.ShapeCasts S64x10x1
  broadcasts_S64x10x1_S64x10x10 : S64x10x1.Broadcasts S64x10x10
  inb_S64x10x10_S64x10x10_0_0_0 : ∀ a, (![0, 0, 0] : Fin 3 → Nat) a + S64x10x10.size a ≤ S64x10x10.size a
  h_S64x10x10 : 0 < S64x10x10.numel
  reduces_S64x10x1024_S64x10 : S64x10x1024.Reduces [2] S64x10
  broadcasts_S64x10x1_S64x10x1024 : S64x10x1.Broadcasts S64x10x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S64x10x1024 : S1x1x1024.Broadcasts S64x10x1024
  shapeCasts_S81920x1024_S8192x10x1024 : S81920x1024.ShapeCasts S8192x10x1024
  dot_S640x1024_S1024x3072_S640x3072_1_0_0_1_n_n_wf : DotDims.WF S640x1024 S1024x3072 S640x3072 [1] [0] [0] [1] [] []
  dot_S64x10x1024_S64x10x1024_S64x10x10_2_2_1_1_0_0_wf : DotDims.WF S64x10x1024 S64x10x1024 S64x10x10 [2] [2] [1] [1] [0] [0]
  dot_S64x10x10_S64x10x1024_S64x10x1024_2_1_1_2_0_0_wf : DotDims.WF S64x10x10 S64x10x1024 S64x10x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x1024.size a ≤ S81920x1024.size a
  hwx0_0 : ∀ i : grid0.Coords, EltTy.bits .f32 = 32 ∨ (Rect.block (s := S81920x1024) S640x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10x1024.size a ≤ S1x10x1024.size a
  hwx0_1 : ∀ i : grid0.Coords, EltTy.bits .f32 = 32 ∨ (Rect.block (s := S1x10x1024) S1x10x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072.size a ≤ S3072.size a
  hwx0_3 : ∀ i : grid0.Coords, EltTy.bits .f32 = 32 ∨ (Rect.block (s := S3072) S3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S640x1024.size a ≤ S81920x1024.size a
  hwx0_6 : ∀ i : grid0.Coords, EltTy.bits .f32 = 32 ∨ (Rect.block (s := S81920x1024) S640x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x10x10.size a ≤ S8192x10x10.size a
  hwx0_7 : ∀ i : grid0.Coords, EltTy.bits .f32 = 32 ∨ (Rect.block (s := S8192x10x10) S64x10x10.size (cc0_transform_7 i) (hinb0_7 i)).WholeWords (EltTy.packing .f32)

variable [Facts₀]

def dot_S640x1024_S1024x3072_S640x3072_1_0_0_1_n_n : DotDims S640x1024 S1024x3072 S640x3072 where
  lhsContracting := [1]
  rhsContracting := [0]
  lhsNonContracting := [0]
  rhsNonContracting := [1]
  lhsBatch := []
  rhsBatch := []
  wf := dot_S640x1024_S1024x3072_S640x3072_1_0_0_1_n_n_wf
def dot_S64x10x1024_S64x10x1024_S64x10x10_2_2_1_1_0_0 : DotDims S64x10x1024 S64x10x1024 S64x10x10 where
  lhsContracting := [2]
  rhsContracting := [2]
  lhsNonContracting := [1]
  rhsNonContracting := [1]
  lhsBatch := [0]
  rhsBatch := [0]
  wf := dot_S64x10x1024_S64x10x1024_S64x10x10_2_2_1_1_0_0_wf
def dot_S64x10x10_S64x10x1024_S64x10x1024_2_1_1_2_0_0 : DotDims S64x10x10 S64x10x1024 S64x10x1024 where
  lhsContracting := [2]
  rhsContracting := [1]
  lhsNonContracting := [1]
  rhsNonContracting := [2]
  lhsBatch := [0]
  rhsBatch := [0]
  wf := dot_S64x10x10_S64x10x1024_S64x10x1024_2_1_1_2_0_0_wf

abbrev win0_0 : Pipeline.Window sig grid0 :=
  Pipeline.Window.ofSpec (Memref.whole main_v6) S640x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x10x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S640x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S64x10x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x10x1024 : Shape := ⟨3, ![8192, 10, 1024]⟩
abbrev S1x10x1024 : Shape := ⟨3, ![1, 10, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8192x10x10 : Shape := ⟨3, ![8192, 10, 10]⟩
abbrev S8192x10 : Shape := ⟨2, ![8192, 10]⟩
abbrev S8192x10x1 : Shape := ⟨3, ![8192, 10, 1]⟩

abbrev nBuf : Space → Nat
  | .hbm => 82
  | .vmem => 0
  | .smem => 0
  | _ => 0

abbrev bufTy : (tb : Table) → Fin (tcTables nBuf tb) → BufTy
  | .hbm, ⟨0, _⟩ => ⟨S8192x10x1024, .f32⟩
  | .hbm, ⟨1, _⟩ => ⟨S1x10x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S8192x10x1024, .f32⟩
  | .hbm, ⟨11, _⟩ => ⟨S8192x10x1024, .f32⟩
  | .hbm, ⟨12, _⟩ => ⟨S8192x10x1024, .f32⟩
  | .hbm, ⟨13, _⟩ => ⟨S1x1x1024, .f32⟩
  | .hbm, ⟨14, _⟩ => ⟨S8192x10x1024, .f32⟩
  | .hbm, ⟨15, _⟩ => ⟨S8192x10x1024, .f32⟩
  | .hbm, ⟨16, _⟩ => ⟨S_, .f32⟩
  | .hbm, ⟨17, _⟩ => ⟨S8192x10x1024, .f32⟩
  | .hbm, ⟨18, _⟩ => ⟨S8192x10x1024, .f32⟩
  | .hbm, ⟨19, _⟩ => ⟨S8192x10x1024, .f32⟩
  | .hbm, ⟨20, _⟩ => ⟨S1x1x1024, .f32⟩
  | .hbm, ⟨21, _⟩ => ⟨S8192x10x1024, .f32⟩
  | .hbm, ⟨22, _⟩ => ⟨S8192x10x1024, .f32⟩
  | .hbm, ⟨23, _⟩ => ⟨S_, .f32⟩
  | .hbm, ⟨24, _⟩ => ⟨S8192x10x1024, .f32⟩
  | .hbm, ⟨25, _⟩ => ⟨S8192x10x1024, .f32⟩
  | .hbm, ⟨26, _⟩ => ⟨S8192x10x1024, .f32⟩
  | .hbm, ⟨27, _⟩ => ⟨S1x1x1024, .f32⟩
  | .hbm, ⟨28, _⟩ => ⟨S8192x10x1024, .f32⟩
  | .hbm, ⟨29, _⟩ => ⟨S8192x10x1024, .f32⟩
  | .hbm, ⟨30, _⟩ => ⟨S_, .f32⟩
  | .hbm, ⟨31, _⟩ => ⟨S8192x10x1024, .f32⟩
  | .hbm, ⟨32, _⟩ => ⟨S8192x10x1024, .f32⟩
  | .hbm, ⟨33, _⟩ => ⟨S_, .f32⟩
  | .hbm, ⟨34, _⟩ => ⟨S8192x10x1024, .f32⟩
  | .hbm, ⟨35, _⟩ => ⟨S8192x10x1024, .f32⟩
  | .hbm, ⟨36, _⟩ => ⟨S8192x10x10, .f32⟩
  | .hbm, ⟨37, _⟩ => ⟨S_, .f32⟩
  | .hbm, ⟨38, _⟩ => ⟨S8192x10, .f32⟩
  | .hbm, ⟨39, _⟩ => ⟨S_, .f32⟩
  | .hbm, ⟨40, _⟩ => ⟨S8192x10, .f32⟩
  | .hbm, ⟨41, _⟩ => ⟨S8192x10, .f32⟩
  | .hbm, ⟨42, _⟩ => ⟨S8192x10x1, .f32⟩
  | .hbm, ⟨43, _⟩ => ⟨S8192x10x10, .f32⟩
  | .hbm, ⟨44, _⟩ => ⟨S8192x10x10, .f32⟩
  | .hbm, ⟨45, _⟩ => ⟨S8192x10x10, .f32⟩
  | .hbm, ⟨46, _⟩ => ⟨S_, .f32⟩
  | .hbm, ⟨47, _⟩ => ⟨S8192x10, .f32⟩
  | .hbm, ⟨48, _⟩ => ⟨S8192x10x1, .f32⟩
  | .hbm, ⟨49, _⟩ => ⟨S8192x10x10, .f32⟩
  | .hbm, ⟨50, _⟩ => ⟨S8192x10x10, .f32⟩
  | .hbm, ⟨51, _⟩ => ⟨S8192x10x1024, .f32⟩
  | .hbm, ⟨52, _⟩ => ⟨S8192x10x1024, .f32⟩
  | .hbm, ⟨53, _⟩ => ⟨S_, .f32⟩
  | .hbm, ⟨54, _⟩ => ⟨S8192x10, .f32⟩
  | .hbm, ⟨55, _⟩ => ⟨S8192x10x1, .f32⟩
  | .hbm, ⟨56, _⟩ => ⟨S_, .f32⟩
  | .hbm, ⟨57, _⟩ => ⟨S8192x10x1, .f32⟩
  | .hbm, ⟨58, _⟩ => ⟨S8192x10x1, .f32⟩
  | .hbm, ⟨59, _⟩ => ⟨S8192x10x1024, .f32⟩
  | .hbm, ⟨60, _⟩ => ⟨S8192x10x1024, .f32⟩
  | .hbm, ⟨61, _⟩ => ⟨S8192x10x1024, .f32⟩
  | .hbm, ⟨62, _⟩ => ⟨S_, .f32⟩
  | .hbm, ⟨63, _⟩ => ⟨S8192x10, .f32⟩
  | .hbm, ⟨64, _⟩ => ⟨S8192x10x1, .f32⟩
  | .hbm, ⟨65, _⟩ => ⟨S_, .f32⟩
  | .hbm, ⟨66, _⟩ => ⟨S8192x10x1, .f32⟩
  | .hbm, ⟨67, _⟩ => ⟨S8192x10x1, .f32⟩
  | .hbm, ⟨68, _⟩ => ⟨S8192x10x1024, .f32⟩
  | .hbm, ⟨69, _⟩ => ⟨S8192x10x1024, .f32⟩
  | .hbm, ⟨70, _⟩ => ⟨S_, .f32⟩
  | .hbm, ⟨71, _⟩ => ⟨S8192x10x1, .f32⟩
  | .hbm, ⟨72, _⟩ => ⟨S8192x10x1, .f32⟩
  | .hbm, ⟨73, _⟩ => ⟨S8192x10x1, .f32⟩
  | .hbm, ⟨74, _⟩ => ⟨S8192x10x1024, .f32⟩
  | .hbm, ⟨75, _⟩ => ⟨S8192x10x1024, .f32⟩
  | .hbm, ⟨76, _⟩ => ⟨S1x1x1024, .f32⟩
  | .hbm, ⟨77, _⟩ => ⟨S8192x10x1024, .f32⟩
  | .hbm, ⟨78, _⟩ => ⟨S8192x10x1024, .f32⟩
  | .hbm, ⟨79, _⟩ => ⟨S1x1x1024, .f32⟩
  | .hbm, ⟨80, _⟩ => ⟨S8192x10x1024, .f32⟩
  | .hbm, ⟨81, _⟩ => ⟨S8192x10x1024, .f32⟩
  | _, _ => ⟨S8192x10x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call2_cst : Ref sig .tc := ⟨.hbm, 30, rfl⟩
abbrev main_call2_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  bcast_S1x10x1024_S8192x10x1024_0_1_2 : S1x10x1024.BroadcastsInDim S8192x10x1024 (![0, 1, 2] : Fin 3 → Fin S8192x10x1024.rank)
  bcast_S1024_S1x1x1024_2 : S1024.BroadcastsInDim S1x1x1024 (![2] : Fin 1 → Fin S1x1x1024.rank)
  bcast_S1x1x1024_S8192x10x1024_0_1_2 : S1x1x1024.BroadcastsInDim S8192x10x1024 (![0, 1, 2] : Fin 3 → Fin S8192x10x1024.rank)
  bcast_S_S8192x10x1024 : S_.BroadcastsInDim S8192x10x1024 (![] : Fin 0 → Fin S8192x10x1024.rank)
  reducesTo_S8192x10x10_S8192x10_d2 : S8192x10x10.ReducesTo [2] S8192x10
  h_S_ : 0 < S_.numel
  bcast_S_S8192x10 : S_.BroadcastsInDim S8192x10 (![] : Fin 0 → Fin S8192x10.rank)
  bcast_S8192x10_S8192x10x1_0_1 : S8192x10.BroadcastsInDim S8192x10x1 (![0, 1] : Fin 2 → Fin S8192x10x1.rank)
  bcast_S8192x10x1_S8192x10x10_0_1_2 : S8192x10x1.BroadcastsInDim S8192x10x10 (![0, 1, 2] : Fin 3 → Fin S8192x10x10.rank)
  reducesTo_S8192x10x1024_S8192x10_d2 : S8192x10x1024.ReducesTo [2] S8192x10
  bcast_S_S8192x10x1 : S_.BroadcastsInDim S8192x10x1 (![] : Fin 0 → Fin S8192x10x1.rank)
  bcast_S8192x10x1_S8192x10x1024_0_1_2 : S8192x10x1.BroadcastsInDim S8192x10x1024 (![0, 1, 2] : Fin 3 → Fin S8192x10x1024.rank)
  dot_S8192x10x1024_S1024x1024_S8192x10x1024_2_1_01_0_n_n_wf : DotDims.WF S8192x10x1024 S1024x1024 S8192x10x1024 [2] [1] [0, 1] [0] [] []
  dot_S8192x10x1024_S8192x10x1024_S8192x10x10_2_2_1_1_0_0_wf : DotDims.WF S8192x10x1024 S8192x10x1024 S8192x10x10 [2] [2] [1] [1] [0] [0]
  dot_S8192x10x10_S8192x10x1024_S8192x10x1024_2_1_1_2_0_0_wf : DotDims.WF S8192x10x10 S8192x10x1024 S8192x10x1024 [2] [1] [1] [2] [0] [0]

variable [Facts₀]

def dot_S8192x10x1024_S1024x1024_S8192x10x1024_2_1_01_0_n_n : DotDims S8192x10x1024 S1024x1024 S8192x10x1024 where
  lhsContracting := [2]
  rhsContracting := [1]
  lhsNonContracting := [0, 1]
  rhsNonContracting := [0]
  lhsBatch := []
  rhsBatch := []
  wf := dot_S8192x10x1024_S1024x1024_S8192x10x1024_2_1_01_0_n_n_wf
def dot_S8192x10x1024_S8192x10x1024_S8192x10x10_2_2_1_1_0_0 : DotDims S8192x10x1024 S8192x10x1024 S8192x10x10 where
  lhsContracting := [2]
  rhsContracting := [2]
  lhsNonContracting := [1]
  rhsNonContracting := [1]
  lhsBatch := [0]
  rhsBatch := [0]
  wf := dot_S8192x10x1024_S8192x10x1024_S8192x10x10_2_2_1_1_0_0_wf
def dot_S8192x10x10_S8192x10x1024_S8192x10x1024_2_1_1_2_0_0 : DotDims S8192x10x10 S8192x10x1024 S8192x10x1024 where
  lhsContracting := [2]
  rhsContracting := [1]
  lhsNonContracting := [1]
  rhsNonContracting := [2]
  lhsBatch := [0]
  rhsBatch := [0]
  wf := dot_S8192x10x10_S8192x10x1024_S8192x10x1024_2_1_1_2_0_0_wf

class Facts : Prop extends Facts₀ where

variable [Facts]
-- ==== Proof.KernelAround.lean ====
/-
  The run of `Kernel`'s `@main` around its one region, and what each array holds at the end.

  `@main` is seven host operations (three transposes, the concatenation of the three transposed weight matrices
  along the columns, its conversion to bf16, the concatenation of the three bias vectors, the reshape of the
  activations `[8192, 10, 1024] → [81920, 1024]`), the region over a grid of 128 points, and one host operation
  after it (the reshape of the first result back to `[8192, 10, 1024]`).

  At grid point `t` the body reads six blocks — rows `640 t … 640 t + 639` of the flattened activations, and the
  whole of the positional table, the fused weights, the fused bias, the scale and the shift — and overwrites two:
  rows `640 t …` of the first result with the normalised rows, and batch entries `64 t … 64 t + 63` of the second with
  the attention probabilities. Every load and store is of a whole staging buffer, so what an output buffer holds
  after the body is the stored value itself, a pure function of the six input blocks (`normedOf`, `probsOf`).

  The proof data says: an input's buffer holds its block before and after the body; an output's holds the stored
  value after it. The body's triple is run symbolically; the launch theorem for a region followed by host lines
  then gives every window's array at the end (the inputs as at the region's entry, the outputs block by block what
  the body stored) and every other buffer as the last host line leaves it. No host line writes an argument, so each
  argument array ends as it was launched: the frame. Everything here is stated at any float instance `F`.
-/
import proofs.«106989_j55602646614549_2_alg».proof.Proof.Gen.Kernel.Launch
import proofs.«106989_j55602646614549_2_alg».proof.Proof.Gen.Kernel.Skeleton
import proofs.«106989_j55602646614549_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the seven host operations before the region, from the launch contents `m`. -/
abbrev ent0 (c : Dev nD) : Valuation τ sig (Elt F) := StableHlo.after (List.flatten [hostOps0]) (fun b => m (c, b))
/-- The same, read at a TensorCore reference. -/
abbrev ent (c : Dev nD) (b : Ref sig .tc) : Buf (Elt F) ((c : Thread nD τ).loc b) := ent0 m c (Proc.devRef .tc b)

/-- The host operations allocate nothing. -/
theorem before_fresh : (hostOps0 : List (HloOp τ sig (Elt F))).Forall fun op => op.fresh = ∅ := by
  simp only [List.Forall]; repeat' constructor
theorem behind_fresh : (hostOps1 : List (HloOp τ sig (Elt F))).Forall fun op => op.fresh = ∅ := by
  simp only [List.Forall]; repeat' constructor

/-- `@main` is the host operations before the region, the region, and the reshape after it: it reduces to the region
    continued by the reshape. -/
theorem main_around (𝒱₀ : Variants) : Pipeline.HMainK (Ix := Unit) (Name := ℕ) (U := UR sig nD τ) (Lvl := ℕ) cfgs 0 defs₀ 𝒱₀ m (main (F := F)) (ent m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape after the region touches only unscoped TensorCore buffers (the first result and its reshaped copy), -/
theorem behind_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem behind_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp behind_fresh) op hop
/-- and writes no array of a window: it writes the reshaped copy only. -/
theorem behind_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## No host operation writes an argument -/

/-- No host operation before the region writes argument 0: the region finds it as launched. -/
theorem ent_arg0 (c : Dev nD) : ent m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 1: the region finds it as launched. -/
theorem ent_arg1 (c : Dev nD) : ent m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 2: the region finds it as launched. -/
theorem ent_arg2 (c : Dev nD) : ent m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 3: the region finds it as launched. -/
theorem ent_arg3 (c : Dev nD) : ent m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 4: the region finds it as launched. -/
theorem ent_arg4 (c : Dev nD) : ent m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 5: the region finds it as launched. -/
theorem ent_arg5 (c : Dev nD) : ent m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 6: the region finds it as launched. -/
theorem ent_arg6 (c : Dev nD) : ent m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 7: the region finds it as launched. -/
theorem ent_arg7 (c : Dev nD) : ent m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 8: the region finds it as launched. -/
theorem ent_arg8 (c : Dev nD) : ent m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 9: the region finds it as launched. -/
theorem ent_arg9 (c : Dev nD) : ent m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Argument 0 is no window's array and the reshape after the region does not write it: it ends as launched. -/
theorem end_arg0 (dats : (p : Fin _) → (c : Dev nD) → Dat τ (Elt F) Unit ℕ (UR sig nD τ) ℕ (cfgs p) c) (c : Dev nD) :
    Pipeline.afterTail₀ cfgs dats 0 (ent0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg0 (by exact (by decide : ∀ w, Pipeline.arrRef spec0 w ≠ main_arg0))]
  exact ent_arg0 m c

/-- Argument 2 is no window's array and the reshape after the region does not write it: it ends as launched. -/
theorem end_arg2 (dats : (p : Fin _) → (c : Dev nD) → Dat τ (Elt F) Unit ℕ (UR sig nD τ) ℕ (cfgs p) c) (c : Dev nD) :
    Pipeline.afterTail₀ cfgs dats 0 (ent0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg2 (by exact (by decide : ∀ w, Pipeline.arrRef spec0 w ≠ main_arg2))]
  exact ent_arg2 m c

/-- Argument 3 is no window's array and the reshape after the region does not write it: it ends as launched. -/
theorem end_arg3 (dats : (p : Fin _) → (c : Dev nD) → Dat τ (Elt F) Unit ℕ (UR sig nD τ) ℕ (cfgs p) c) (c : Dev nD) :
    Pipeline.afterTail₀ cfgs dats 0 (ent0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg3 (by exact (by decide : ∀ w, Pipeline.arrRef spec0 w ≠ main_arg3))]
  exact ent_arg3 m c

/-- Argument 4 is no window's array and the reshape after the region does not write it: it ends as launched. -/
theorem end_arg4 (dats : (p : Fin _) → (c : Dev nD) → Dat τ (Elt F) Unit ℕ (UR sig nD τ) ℕ (cfgs p) c) (c : Dev nD) :
    Pipeline.afterTail₀ cfgs dats 0 (ent0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg4 (by exact (by decide : ∀ w, Pipeline.arrRef spec0 w ≠ main_arg4))]
  exact ent_arg4 m c

/-- Argument 5 is no window's array and the reshape after the region does not write it: it ends as launched. -/
theorem end_arg5 (dats : (p : Fin _) → (c : Dev nD) → Dat τ (Elt F) Unit ℕ (UR sig nD τ) ℕ (cfgs p) c) (c : Dev nD) :
    Pipeline.afterTail₀ cfgs dats 0 (ent0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg5 (by exact (by decide : ∀ w, Pipeline.arrRef spec0 w ≠ main_arg5))]
  exact ent_arg5 m c

/-- Argument 6 is no window's array and the reshape after the region does not write it: it ends as launched. -/
theorem end_arg6 (dats : (p : Fin _) → (c : Dev nD) → Dat τ (Elt F) Unit ℕ (UR sig nD τ) ℕ (cfgs p) c) (c : Dev nD) :
    Pipeline.afterTail₀ cfgs dats 0 (ent0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg6 (by exact (by decide : ∀ w, Pipeline.arrRef spec0 w ≠ main_arg6))]
  exact ent_arg6 m c

/-- Argument 7 is no window's array and the reshape after the region does not write it: it ends as launched. -/
theorem end_arg7 (dats : (p : Fin _) → (c : Dev nD) → Dat τ (Elt F) Unit ℕ (UR sig nD τ) ℕ (cfgs p) c) (c : Dev nD) :
    Pipeline.afterTail₀ cfgs dats 0 (ent0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg7 (by exact (by decide : ∀ w, Pipeline.arrRef spec0 w ≠ main_arg7))]
  exact ent_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (ent m c (Pipeline.arrRef spec0 w))

/-- Input window 0's current staging buffer holds its block at every point, fetched there or not (an unfetched
    window's block index has not moved), for any proof data over the entry arrays whose body leaves the block in place. -/
theorem held0_of {c : Dev nD} (dat : Dat τ (Elt F) Unit ℕ (UR sig nD τ) ℕ cfg0 c) (hA : dat.A 0 = ent m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's block index has not moved), for any proof data over the entry arrays whose body leaves the block in place. -/
theorem held1_of {c : Dev nD} (dat : Dat τ (Elt F) Unit ℕ (UR sig nD τ) ℕ cfg0 c) (hA : dat.A 1 = ent m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's block index has not moved), for any proof data over the entry arrays whose body leaves the block in place. -/
theorem held2_of {c : Dev nD} (dat : Dat τ (Elt F) Unit ℕ (UR sig nD τ) ℕ cfg0 c) (hA : dat.A 2 = ent m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an unfetched
    window's block index has not moved), for any proof data over the entry arrays whose body leaves the block in place. -/
theorem held3_of {c : Dev nD} (dat : Dat τ (Elt F) Unit ℕ (UR sig nD τ) ℕ cfg0 c) (hA : dat.A 3 = ent m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an unfetched
    window's block index has not moved), for any proof data over the entry arrays whose body leaves the block in place. -/
theorem held4_of {c : Dev nD} (dat : Dat τ (Elt F) Unit ℕ (UR sig nD τ) ℕ cfg0 c) (hA : dat.A 4 = ent m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (an unfetched
    window's block index has not moved), for any proof data over the entry arrays whose body leaves the block in place. -/
theorem held5_of {c : Dev nD} (dat : Dat τ (Elt F) Unit ℕ (UR sig nD τ) ℕ cfg0 c) (hA : dat.A 5 = ent m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run ending with every window's array at what the proof data computes and every other buffer as the
    reshape after the region leaves it, each argument array ends as launched: the three staged arguments (the
    positional table, the scale, the shift) are input windows, whose arrays end as at the region's entry; the other
    seven bypass the region and are not written after it. -/
theorem frame_of (dats : (p : Fin 1) → (c : Dev nD) → Dat τ (Elt F) Unit ℕ (UR sig nD τ) ℕ (cfgs p) c)
    (hA : ∀ c w, (dats 0 c).A w = ent m c (Pipeline.arrRef spec0 w))
    (h : θ_run defs (onTc (τ := τ) (main (F := F))) (s₀ m ρ) (Pipeline.FramePost cfgs dats 0 (Pipeline.afterTail₀ cfgs dats 0 (ent0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_arg0 (Pipeline.mem_restRefs_of main_arg0 (by decide) (by decide))).trans (end_arg0 m dats c),
     ((h c).1 1).trans (((dats 0 c).arrAt_in 1 rfl _).trans ((hA c 1).trans (ent_arg1 m c))),
     ((h c).2 main_arg2 (Pipeline.mem_restRefs_of main_arg2 (by decide) (by decide))).trans (end_arg2 m dats c),
     ((h c).2 main_arg3 (Pipeline.mem_restRefs_of main_arg3 (by decide) (by decide))).trans (end_arg3 m dats c),
     ((h c).2 main_arg4 (Pipeline.mem_restRefs_of main_arg4 (by decide) (by decide))).trans (end_arg4 m dats c),
     ((h c).2 main_arg5 (Pipeline.mem_restRefs_of main_arg5 (by decide) (by decide))).trans (end_arg5 m dats c),
     ((h c).2 main_arg6 (Pipeline.mem_restRefs_of main_arg6 (by decide) (by decide))).trans (end_arg6 m dats c),
     ((h c).2 main_arg7 (Pipeline.mem_restRefs_of main_arg7 (by decide) (by decide))).trans (end_arg7 m dats c),
     ((h c).1 4).trans (((dats 0 c).arrAt_in 4 rfl _).trans ((hA c 4).trans (ent_arg8 m c))),
     ((h c).1 5).trans (((dats 0 c).arrAt_in 5 rfl _).trans ((hA c 5).trans (ent_arg9 m c)))⟩) h

/-! ## What the body reads and stores: whole buffers -/

abbrev rRows : Rect S640x1024 := Rect.unit (s := S640x1024) ![0, 0] S640x1024.size inb_S640x1024_S640x1024_0_0
abbrev rTable : Rect S1x10x1024 := Rect.unit (s := S1x10x1024) ![0, 0, 0] S1x10x1024.size inb_S1x10x1024_S1x10x1024_0_0_0
abbrev rWeights : Rect S1024x3072 := Rect.unit (s := S1024x3072) ![0, 0] S1024x3072.size inb_S1024x3072_S1024x3072_0_0
abbrev rBias : Rect S3072 := Rect.unit (s := S3072) ![0] S3072.size inb_S3072_S3072_0
abbrev rFeat : Rect S1024 := Rect.unit (s := S1024) ![0] S1024.size inb_S1024_S1024_0
abbrev rProbs : Rect S64x10x10 := Rect.unit (s := S64x10x10) ![0, 0, 0] S64x10x10.size inb_S64x10x10_S64x10x10_0_0_0

/-- The attention probabilities the body stores, from the blocks of the activations, the positional table, the
    fused weights and the fused bias: the second output's buffer after the body. -/
def probsOf (x0 : Vec F S640x1024 .f32) (x1 : Vec F S1x10x1024 .f32) (x2 : Vec F S1024x3072 .bf16) (x3 : Vec F S3072 .f32) : Vec F S64x10x10 .f32 :=
  View.canon [⟨rProbs, k0_pay5 (View.ld x0 rRows) (View.ld x1 rTable) (View.ld x2 rWeights) (View.ld x3 rBias)⟩]

/-- The normalised rows the body stores, from all six input blocks: the first output's buffer after the body. -/
def normedOf (x0 : Vec F S640x1024 .f32) (x1 : Vec F S1x10x1024 .f32) (x2 : Vec F S1024x3072 .bf16) (x3 : Vec F S3072 .f32)
    (x4 : Vec F S1024 .f32) (x5 : Vec F S1024 .f32) : Vec F S640x1024 .f32 :=
  View.canon [⟨rRows, k0_pay1 (k0_pay2 (View.ld x0 rRows) (View.ld x1 rTable))
    (k0_pay4 (View.ld x0 rRows) (View.ld x1 rTable) (View.ld x2 rWeights) (View.ld x3 rBias))
    (k0_pay5 (View.ld x0 rRows) (View.ld x1 rTable) (View.ld x2 rWeights) (View.ld x3 rBias))
    (View.ld x4 rFeat) (View.ld x5 rFeat)⟩]

/-- A store of the whole buffer covers it. -/
theorem cover_probs (p0 : Vec F S64x10x10 .f32) (y : S64x10x10.Idx) :
    ∃ pc ∈ ([⟨rProbs, p0⟩] : List (View.Piece (Elt F) S64x10x10 .f32)), y ∈ pc.1.set :=
  View.cover_of_tiled [⟨rProbs, p0⟩] S64x10x10.size (by rfl) y
theorem cover_normed (p0 : Vec F S640x1024 .f32) (y : S640x1024.Idx) :
    ∃ pc ∈ ([⟨rRows, p0⟩] : List (View.Piece (Elt F) S640x1024 .f32)), y ∈ pc.1.set :=
  View.cover_of_tiled [⟨rRows, p0⟩] S640x1024.size (by rfl) y

/-! ## The body's triple -/

set_option maxHeartbeats 4000000 in
/-- The body on whole staging buffers — the six inputs' at contents `x0 … x5`, the two outputs' at anything — runs
    to the continuation with the inputs' as they were and the outputs' at `normedOf` and `probsOf` of the inputs'. -/
theorem sound_kernel (c : Dev nD) (E : Set ℕ) (i : grid0.Coords)
    (arg1 : Memref sig .tc .vmem S640x1024 .f32) (harg1 : arg1.IsWhole) (arg2 : Memref sig .tc .vmem S1x10x1024 .f32) (harg2 : arg2.IsWhole)
    (arg3 : Memref sig .tc .vmem S1024x3072 .bf16) (harg3 : arg3.IsWhole) (arg4 : Memref sig .tc .vmem S3072 .f32) (harg4 : arg4.IsWhole)
    (arg5 : Memref sig .tc .vmem S1024 .f32) (harg5 : arg5.IsWhole) (arg6 : Memref sig .tc .vmem S1024 .f32) (harg6 : arg6.IsWhole)
    (arg7 : Memref sig .tc .vmem S640x1024 .f32) (harg7 : arg7.IsWhole) (arg8 : Memref sig .tc .vmem S64x10x10 .f32) (harg8 : arg8.IsWhole)
    (x0 : Vec F S640x1024 .f32) (x1 : Vec F S1x10x1024 .f32) (x2 : Vec F S1024x3072 .bf16) (x3 : Vec F S3072 .f32)
    (x4 : Vec F S1024 .f32) (x5 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (normedOf x0 x1 x2 x3 x4 x5) ∗ owns (c : Thread nD τ) arg8 fullShare (probsOf x0 x1 x2 x3)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_normed _)
  iexists _; isplitr
  swap; · iexact H7
  ipureintro
  try dsimp only
  exact View.read_writes_eq_canon _ _ _ (cover_probs _)

/-! ## The pipeline's proof data -/

/-- The proof data of the pipeline on core `c`: the arrays as the region finds them; after the body at point `t` each
    input's buffer at its block and each output's at the stored value of the six blocks; the invariant the scoped
    rest and the generator register, untouched; nothing owed; full shares. -/
def dats (_ : Fin 1) (c : Dev nD) : Dat τ (Elt F) Unit ℕ (UR sig nD τ) ℕ cfg0 c where
  A w := ent m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => normedOf (iblk m c 0 t) (iblk m c 1 t) (iblk m c 2 t) (iblk m c 3 t) (iblk m c 4 t) (iblk m c 5 t)
    | ⟨7, _⟩ => probsOf (iblk m c 0 t) (iblk m c 1 t) (iblk m c 2 t) (iblk m c 3 t)
  Φ _ := Pipeline.ΦA spec0 c
  q _ := fullShare
  owed _ := 0

/-- The proof data's arrays are the entry contents. -/
theorem A_eq (c : Dev nD) (w : Fin cfg0.W) : (dats m 0 c).A w = ent m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t
    = normedOf (iblk m c 0 t) (iblk m c 1 t) (iblk m c 2 t) (iblk m c 3 t) (iblk m c 4 t) (iblk m c 5 t) := by dsimp only [dats]
theorem left7 (c : Dev nD) (t : Fin cfg0.N) : (dats m 0 c).after 7 t
    = probsOf (iblk m c 0 t) (iblk m c 1 t) (iblk m c 2 t) (iblk m c 3 t) := by dsimp only [dats]

theorem held0 (c : Dev nD) (t : Fin cfg0.N) (d) : (dats m 0 c).before 0 t d = iblk m c 0 t :=
  held0_of m (dats m 0 c) (A_eq m c 0) (left0 m c) t d
theorem held1 (c : Dev nD) (t : Fin cfg0.N) (d) : (dats m 0 c).before 1 t d = iblk m c 1 t :=
  held1_of m (dats m 0 c) (A_eq m c 1) (left1 m c) t d
theorem held2 (c : Dev nD) (t : Fin cfg0.N) (d) : (dats m 0 c).before 2 t d = iblk m c 2 t :=
  held2_of m (dats m 0 c) (A_eq m c 2) (left2 m c) t d
theorem held3 (c : Dev nD) (t : Fin cfg0.N) (d) : (dats m 0 c).before 3 t d = iblk m c 3 t :=
  held3_of m (dats m 0 c) (A_eq m c 3) (left3 m c) t d
theorem held4 (c : Dev nD) (t : Fin cfg0.N) (d) : (dats m 0 c).before 4 t d = iblk m c 4 t :=
  held4_of m (dats m 0 c) (A_eq m c 4) (left4 m c) t d
theorem held5 (c : Dev nD) (t : Fin cfg0.N) (d) : (dats m 0 c).before 5 t d = iblk m c 5 t :=
  held5_of m (dats m 0 c) (A_eq m c 5) (left5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5]
  rw [show (dats m 0 c).Φ t.succ = (dats m 0 c).Φ t.castSucc from rfl,
    show (dats m 0 c).owesAt () t.succ = (dats m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of `@main` terminates, and at the end every
    window's array holds what the proof data computes — an input its entry contents, an output the stored values block
    by block — and every other unscoped buffer what the reshape after the region leaves. -/
theorem run_main : θ_run defs (onTc (τ := τ) (main (F := F))) (s₀ m ρ) (Pipeline.FramePost cfgs (dats m) 0 (Pipeline.afterTail₀ cfgs (dats m) 0 (ent0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := ent0 m) (opss := [hostOps1]) (hsub := behind_sub) (hfresh := behind_alloc) (hkeep := behind_keeps)
    (hmain := main_around m Variants.none) (hA := A_eq m) (hΦ := fun _ _ => rfl)

/-- The frame: every weakly fair execution terminates without a fault and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Around

end
-- ==== Proof.KernelIdealAround.lean ====
/-
  The run of `KernelIdeal`'s `@main` around its one region, and what each array holds at the end.

  `@main` is seven host operations (three transposes, the concatenation of the three transposed weight matrices
  along the columns, its conversion to bf16, the concatenation of the three bias vectors, the reshape of the
  activations `[8192, 10, 1024] → [81920, 1024]`), the region over a grid of 128 points, and one host operation
  after it (the reshape of the first result back to `[8192, 10, 1024]`).

  At grid point `t` the body reads six blocks — rows `640 t … 640 t + 639` of the flattened activations, and the
  whole of the positional table, the fused weights, the fused bias, the scale and the shift — and overwrites two:
  rows `640 t …` of the first result with the normalised rows, and batch entries `64 t … 64 t + 63` of the second with
  the attention probabilities. Every load and store is of a whole staging buffer, so what an output buffer holds
  after the body is the stored value itself, a pure function of the six input blocks (`normedOf`, `probsOf`).

  The proof data says: an input's buffer holds its block before and after the body; an output's holds the stored
  value after it. The body's triple is run symbolically; the launch theorem for a region followed by host lines
  then gives every window's array at the end (the inputs as at the region's entry, the outputs block by block what
  the body stored) and every other buffer as the last host line leaves it. No host line writes an argument, so each
  argument array ends as it was launched: the frame. Everything here is stated at any float instance `F`.
-/
import proofs.«106989_j55602646614549_2_alg».proof.Proof.Gen.KernelIdeal.Launch
import proofs.«106989_j55602646614549_2_alg».proof.Proof.Gen.KernelIdeal.Skeleton
import proofs.«106989_j55602646614549_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the seven host operations before the region, from the launch contents `m`. -/
abbrev ent0 (c : Dev nD) : Valuation τ sig (Elt F) := StableHlo.after (List.flatten [hostOps0]) (fun b => m (c, b))
/-- The same, read at a TensorCore reference. -/
abbrev ent (c : Dev nD) (b : Ref sig .tc) : Buf (Elt F) ((c : Thread nD τ).loc b) := ent0 m c (Proc.devRef .tc b)

/-- The host operations allocate nothing. -/
theorem before_fresh : (hostOps0 : List (HloOp τ sig (Elt F))).Forall fun op => op.fresh = ∅ := by
  simp only [List.Forall]; repeat' constructor
theorem behind_fresh : (hostOps1 : List (HloOp τ sig (Elt F))).Forall fun op => op.fresh = ∅ := by
  simp only [List.Forall]; repeat' constructor

/-- `@main` is the host operations before the region, the region, and the reshape after it: it reduces to the region
    continued by the reshape. -/
theorem main_around (𝒱₀ : Variants) : Pipeline.HMainK (Ix := Unit) (Name := ℕ) (U := UR sig nD τ) (Lvl := ℕ) cfgs 0 defs₀ 𝒱₀ m (main (F := F)) (ent m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape after the region touches only unscoped TensorCore buffers (the first result and its reshaped copy), -/
theorem behind_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem behind_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp behind_fresh) op hop
/-- and writes no array of a window: it writes the reshaped copy only. -/
theorem behind_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## No host operation writes an argument -/

/-- No host operation before the region writes argument 0: the region finds it as launched. -/
theorem ent_arg0 (c : Dev nD) : ent m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 1: the region finds it as launched. -/
theorem ent_arg1 (c : Dev nD) : ent m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 2: the region finds it as launched. -/
theorem ent_arg2 (c : Dev nD) : ent m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 3: the region finds it as launched. -/
theorem ent_arg3 (c : Dev nD) : ent m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 4: the region finds it as launched. -/
theorem ent_arg4 (c : Dev nD) : ent m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 5: the region finds it as launched. -/
theorem ent_arg5 (c : Dev nD) : ent m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 6: the region finds it as launched. -/
theorem ent_arg6 (c : Dev nD) : ent m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 7: the region finds it as launched. -/
theorem ent_arg7 (c : Dev nD) : ent m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 8: the region finds it as launched. -/
theorem ent_arg8 (c : Dev nD) : ent m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- No host operation before the region writes argument 9: the region finds it as launched. -/
theorem ent_arg9 (c : Dev nD) : ent m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Argument 0 is no window's array and the reshape after the region does not write it: it ends as launched. -/
theorem end_arg0 (dats : (p : Fin _) → (c : Dev nD) → Dat τ (Elt F) Unit ℕ (UR sig nD τ) ℕ (cfgs p) c) (c : Dev nD) :
    Pipeline.afterTail₀ cfgs dats 0 (ent0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg0 (by exact (by decide : ∀ w, Pipeline.arrRef spec0 w ≠ main_arg0))]
  exact ent_arg0 m c

/-- Argument 2 is no window's array and the reshape after the region does not write it: it ends as launched. -/
theorem end_arg2 (dats : (p : Fin _) → (c : Dev nD) → Dat τ (Elt F) Unit ℕ (UR sig nD τ) ℕ (cfgs p) c) (c : Dev nD) :
    Pipeline.afterTail₀ cfgs dats 0 (ent0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg2 (by exact (by decide : ∀ w, Pipeline.arrRef spec0 w ≠ main_arg2))]
  exact ent_arg2 m c

/-- Argument 3 is no window's array and the reshape after the region does not write it: it ends as launched. -/
theorem end_arg3 (dats : (p : Fin _) → (c : Dev nD) → Dat τ (Elt F) Unit ℕ (UR sig nD τ) ℕ (cfgs p) c) (c : Dev nD) :
    Pipeline.afterTail₀ cfgs dats 0 (ent0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg3 (by exact (by decide : ∀ w, Pipeline.arrRef spec0 w ≠ main_arg3))]
  exact ent_arg3 m c

/-- Argument 4 is no window's array and the reshape after the region does not write it: it ends as launched. -/
theorem end_arg4 (dats : (p : Fin _) → (c : Dev nD) → Dat τ (Elt F) Unit ℕ (UR sig nD τ) ℕ (cfgs p) c) (c : Dev nD) :
    Pipeline.afterTail₀ cfgs dats 0 (ent0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg4 (by exact (by decide : ∀ w, Pipeline.arrRef spec0 w ≠ main_arg4))]
  exact ent_arg4 m c

/-- Argument 5 is no window's array and the reshape after the region does not write it: it ends as launched. -/
theorem end_arg5 (dats : (p : Fin _) → (c : Dev nD) → Dat τ (Elt F) Unit ℕ (UR sig nD τ) ℕ (cfgs p) c) (c : Dev nD) :
    Pipeline.afterTail₀ cfgs dats 0 (ent0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg5 (by exact (by decide : ∀ w, Pipeline.arrRef spec0 w ≠ main_arg5))]
  exact ent_arg5 m c

/-- Argument 6 is no window's array and the reshape after the region does not write it: it ends as launched. -/
theorem end_arg6 (dats : (p : Fin _) → (c : Dev nD) → Dat τ (Elt F) Unit ℕ (UR sig nD τ) ℕ (cfgs p) c) (c : Dev nD) :
    Pipeline.afterTail₀ cfgs dats 0 (ent0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg6 (by exact (by decide : ∀ w, Pipeline.arrRef spec0 w ≠ main_arg6))]
  exact ent_arg6 m c

/-- Argument 7 is no window's array and the reshape after the region does not write it: it ends as launched. -/
theorem end_arg7 (dats : (p : Fin _) → (c : Dev nD) → Dat τ (Elt F) Unit ℕ (UR sig nD τ) ℕ (cfgs p) c) (c : Dev nD) :
    Pipeline.afterTail₀ cfgs dats 0 (ent0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (ent0 m c) _ main_arg7 (by exact (by decide : ∀ w, Pipeline.arrRef spec0 w ≠ main_arg7))]
  exact ent_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (ent m c (Pipeline.arrRef spec0 w))

/-- Input window 0's current staging buffer holds its block at every point, fetched there or not (an unfetched
    window's block index has not moved), for any proof data over the entry arrays whose body leaves the block in place. -/
theorem held0_of {c : Dev nD} (dat : Dat τ (Elt F) Unit ℕ (UR sig nD τ) ℕ cfg0 c) (hA : dat.A 0 = ent m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's block index has not moved), for any proof data over the entry arrays whose body leaves the block in place. -/
theorem held1_of {c : Dev nD} (dat : Dat τ (Elt F) Unit ℕ (UR sig nD τ) ℕ cfg0 c) (hA : dat.A 1 = ent m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's block index has not moved), for any proof data over the entry arrays whose body leaves the block in place. -/
theorem held2_of {c : Dev nD} (dat : Dat τ (Elt F) Unit ℕ (UR sig nD τ) ℕ cfg0 c) (hA : dat.A 2 = ent m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an unfetched
    window's block index has not moved), for any proof data over the entry arrays whose body leaves the block in place. -/
theorem held3_of {c : Dev nD} (dat : Dat τ (Elt F) Unit ℕ (UR sig nD τ) ℕ cfg0 c) (hA : dat.A 3 = ent m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an unfetched
    window's block index has not moved), for any proof data over the entry arrays whose body leaves the block in place. -/
theorem held4_of {c : Dev nD} (dat : Dat τ (Elt F) Unit ℕ (UR sig nD τ) ℕ cfg0 c) (hA : dat.A 4 = ent m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (an unfetched
    window's block index has not moved), for any proof data over the entry arrays whose body leaves the block in place. -/
theorem held5_of {c : Dev nD} (dat : Dat τ (Elt F) Unit ℕ (UR sig nD τ) ℕ cfg0 c) (hA : dat.A 5 = ent m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run ending with every window's array at what the proof data computes and every other buffer as the
    reshape after the region leaves it, each argument array ends as launched: the three staged arguments (the
    positional table, the scale, the shift) are input windows, whose arrays end as at the region's entry; the other
    seven bypass the region and are not written after it. -/
theorem frame_of (dats : (p : Fin 1) → (c : Dev nD) → Dat τ (Elt F) Unit ℕ (UR sig nD τ) ℕ (cfgs p) c)
    (hA : ∀ c w, (dats 0 c).A w = ent m c (Pipeline.arrRef spec0 w))
    (h : θ_run defs (onTc (τ := τ) (main (F := F))) (s₀ m ρ) (Pipeline.FramePost cfgs dats 0 (Pipeline.afterTail₀ cfgs dats 0 (ent0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_arg0 (Pipeline.mem_restRefs_of main_arg0 (by decide) (by decide))).trans (end_arg0 m dats c),
     ((h c).1 1).trans (((dats 0 c).arrAt_in 1 rfl _).trans ((hA c 1).trans (ent_arg1 m c))),
     ((h c).2 main_arg2 (Pipeline.mem_restRefs_of main_arg2 (by decide) (by decide))).trans (end_arg2 m dats c),
     ((h c).2 main_arg3 (Pipeline.mem_restRefs_of main_arg3 (by decide) (by decide))).trans (end_arg3 m dats c),
     ((h c).2 main_arg4 (Pipeline.mem_restRefs_of main_arg4 (by decide) (by decide))).trans (end_arg4 m dats c),
     ((h c).2 main_arg5 (Pipeline.mem_restRefs_of main_arg5 (by decide) (by decide))).trans (end_arg5 m dats c),
     ((h c).2 main_arg6 (Pipeline.mem_restRefs_of main_arg6 (by decide) (by decide))).trans (end_arg6 m dats c),
     ((h c).2 main_arg7 (Pipeline.mem_restRefs_of main_arg7 (by decide) (by decide))).trans (end_arg7 m dats c),
     ((h c).1 4).trans (((dats 0 c).arrAt_in 4 rfl _).trans ((hA c 4).trans (ent_arg8 m c))),
     ((h c).1 5).trans (((dats 0 c).arrAt_in 5 rfl _).trans ((hA c 5).trans (ent_arg9 m c)))⟩) h

/-! ## What the body reads and stores: whole buffers -/

abbrev rRows : Rect S640x1024 := Rect.unit (s := S640x1024) ![0, 0] S640x1024.size inb_S640x1024_S640x1024_0_0
abbrev rTable : Rect S1x10x1024 := Rect.unit (s := S1x10x1024) ![0, 0, 0] S1x10x1024.size inb_S1x10x1024_S1x10x1024_0_0_0
abbrev rWeights : Rect S1024x3072 := Rect.unit (s := S1024x3072) ![0, 0] S1024x3072.size inb_S1024x3072_S1024x3072_0_0
abbrev rBias : Rect S3072 := Rect.unit (s := S3072) ![0] S3072.size inb_S3072_S3072_0
abbrev rFeat : Rect S1024 := Rect.unit (s := S1024) ![0] S1024.size inb_S1024_S1024_0
abbrev rProbs : Rect S64x10x10 := Rect.unit (s := S64x10x10) ![0, 0, 0] S64x10x10.size inb_S64x10x10_S64x10x10_0_0_0

/-- The attention probabilities the body stores, from the blocks of the activations, the positional table, the
    fused weights and the fused bias: the second output's buffer after the body. -/
def probsOf (x0 : Vec F S640x1024 .f32) (x1 : Vec F S1x10x1024 .f32) (x2 : Vec F S1024x3072 .bf16) (x3 : Vec F S3072 .f32) : Vec F S64x10x10 .f32 :=
  View.canon [⟨rProbs, k0_pay5 (View.ld x0 rRows) (View.ld x1 rTable) (View.ld x2 rWeights) (View.ld x3 rBias)⟩]

/-- The normalised rows the body stores, from all six input blocks: the first output's buffer after the body. -/
def normedOf (x0 : Vec F S640x1024 .f32) (x1 : Vec F S1x10x1024 .f32) (x2 : Vec F S1024x3072 .bf16) (x3 : Vec F S3072 .f32)
    (x4 : Vec F S1024 .f32) (x5 : Vec F S1024 .f32) : Vec F S640x1024 .f32 :=
  View.canon [⟨rRows, k0_pay1 (k0_pay2 (View.ld x0 rRows) (View.ld x1 rTable))
    (k0_pay4 (View.ld x0 rRows) (View.ld x1 rTable) (View.ld x2 rWeights) (View.ld x3 rBias))
    (k0_pay5 (View.ld x0 rRows) (View.ld x1 rTable) (View.ld x2 rWeights) (View.ld x3 rBias))
    (View.ld x4 rFeat) (View.ld x5 rFeat)⟩]

/-- A store of the whole buffer covers it. -/
theorem cover_probs (p0 : Vec F S64x10x10 .f32) (y : S64x10x10.Idx) :
    ∃ pc ∈ ([⟨rProbs, p0⟩] : List (View.Piece (Elt F) S64x10x10 .f32)), y ∈ pc.1.set :=
  View.cover_of_tiled [⟨rProbs, p0⟩] S64x10x10.size (by rfl) y
theorem cover_normed (p0 : Vec F S640x1024 .f32) (y : S640x1024.Idx) :
    ∃ pc ∈ ([⟨rRows, p0⟩] : List (View.Piece (Elt F) S640x1024 .f32)), y ∈ pc.1.set :=
  View.cover_of_tiled [⟨rRows, p0⟩] S640x1024.size (by rfl) y

/-! ## The body's triple -/

set_option maxHeartbeats 4000000 in
/-- The body on whole staging buffers — the six inputs' at contents `x0 … x5`, the two outputs' at anything — runs
    to the continuation with the inputs' as they were and the outputs' at `normedOf` and `probsOf` of the inputs'. -/
theorem sound_kernel (c : Dev nD) (E : Set ℕ) (i : grid0.Coords)
    (arg1 : Memref sig .tc .vmem S640x1024 .f32) (harg1 : arg1.IsWhole) (arg2 : Memref sig .tc .vmem S1x10x1024 .f32) (harg2 : arg2.IsWhole)
    (arg3 : Memref sig .tc .vmem S1024x3072 .bf16) (harg3 : arg3.IsWhole) (arg4 : Memref sig .tc .vmem S3072 .f32) (harg4 : arg4.IsWhole)
    (arg5 : Memref sig .tc .vmem S1024 .f32) (harg5 : arg5.IsWhole) (arg6 : Memref sig .tc .vmem S1024 .f32) (harg6 : arg6.IsWhole)
    (arg7 : Memref sig .tc .vmem S640x1024 .f32) (harg7 : arg7.IsWhole) (arg8 : Memref sig .tc .vmem S64x10x10 .f32) (harg8 : arg8.IsWhole)
    (x0 : Vec F S640x1024 .f32) (x1 : Vec F S1x10x1024 .f32) (x2 : Vec F S1024x3072 .bf16) (x3 : Vec F S3072 .f32)
    (x4 : Vec F S1024 .f32) (x5 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (normedOf x0 x1 x2 x3 x4 x5) ∗ owns (c : Thread nD τ) arg8 fullShare (probsOf x0 x1 x2 x3)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_normed _)
  iexists _; isplitr
  swap; · iexact H7
  ipureintro
  try dsimp only
  exact View.read_writes_eq_canon _ _ _ (cover_probs _)

/-! ## The pipeline's proof data -/

/-- The proof data of the pipeline on core `c`: the arrays as the region finds them; after the body at point `t` each
    input's buffer at its block and each output's at the stored value of the six blocks; the invariant the scoped
    rest and the generator register, untouched; nothing owed; full shares. -/
def dats (_ : Fin 1) (c : Dev nD) : Dat τ (Elt F) Unit ℕ (UR sig nD τ) ℕ cfg0 c where
  A w := ent m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => normedOf (iblk m c 0 t) (iblk m c 1 t) (iblk m c 2 t) (iblk m c 3 t) (iblk m c 4 t) (iblk m c 5 t)
    | ⟨7, _⟩ => probsOf (iblk m c 0 t) (iblk m c 1 t) (iblk m c 2 t) (iblk m c 3 t)
  Φ _ := Pipeline.ΦA spec0 c
  q _ := fullShare
  owed _ := 0

/-- The proof data's arrays are the entry contents. -/
theorem A_eq (c : Dev nD) (w : Fin cfg0.W) : (dats m 0 c).A w = ent m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t
    = normedOf (iblk m c 0 t) (iblk m c 1 t) (iblk m c 2 t) (iblk m c 3 t) (iblk m c 4 t) (iblk m c 5 t) := by dsimp only [dats]
theorem left7 (c : Dev nD) (t : Fin cfg0.N) : (dats m 0 c).after 7 t
    = probsOf (iblk m c 0 t) (iblk m c 1 t) (iblk m c 2 t) (iblk m c 3 t) := by dsimp only [dats]

theorem held0 (c : Dev nD) (t : Fin cfg0.N) (d) : (dats m 0 c).before 0 t d = iblk m c 0 t :=
  held0_of m (dats m 0 c) (A_eq m c 0) (left0 m c) t d
theorem held1 (c : Dev nD) (t : Fin cfg0.N) (d) : (dats m 0 c).before 1 t d = iblk m c 1 t :=
  held1_of m (dats m 0 c) (A_eq m c 1) (left1 m c) t d
theorem held2 (c : Dev nD) (t : Fin cfg0.N) (d) : (dats m 0 c).before 2 t d = iblk m c 2 t :=
  held2_of m (dats m 0 c) (A_eq m c 2) (left2 m c) t d
theorem held3 (c : Dev nD) (t : Fin cfg0.N) (d) : (dats m 0 c).before 3 t d = iblk m c 3 t :=
  held3_of m (dats m 0 c) (A_eq m c 3) (left3 m c) t d
theorem held4 (c : Dev nD) (t : Fin cfg0.N) (d) : (dats m 0 c).before 4 t d = iblk m c 4 t :=
  held4_of m (dats m 0 c) (A_eq m c 4) (left4 m c) t d
theorem held5 (c : Dev nD) (t : Fin cfg0.N) (d) : (dats m 0 c).before 5 t d = iblk m c 5 t :=
  held5_of m (dats m 0 c) (A_eq m c 5) (left5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5]
  rw [show (dats m 0 c).Φ t.succ = (dats m 0 c).Φ t.castSucc from rfl,
    show (dats m 0 c).owesAt () t.succ = (dats m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of `@main` terminates, and at the end every
    window's array holds what the proof data computes — an input its entry contents, an output the stored values block
    by block — and every other unscoped buffer what the reshape after the region leaves. -/
theorem run_main : θ_run defs (onTc (τ := τ) (main (F := F))) (s₀ m ρ) (Pipeline.FramePost cfgs (dats m) 0 (Pipeline.afterTail₀ cfgs (dats m) 0 (ent0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := ent0 m) (opss := [hostOps1]) (hsub := behind_sub) (hfresh := behind_alloc) (hkeep := behind_keeps)
    (hmain := main_around m Variants.none) (hA := A_eq m) (hΦ := fun _ _ => rfl)

/-- The frame: every weakly fair execution terminates without a fault and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Around

end
-- ==== Proof.LayerSpec.lean ====
/-
  One batch element of the layer, on the extended reals.

  A batch element is ten rows of 1024 features. With the positional table added (`posed`), three linear maps followed
  by a rectifier give queries, keys and values (`proj`: row `t`, output feature `e`, the weight matrix read as
  `W e d`, output feature first). The scaled queries against the keys give a ten by ten table of scores (`score`);
  each row of the table is shifted by its maximum (`rowMax`), exponentiated (`expo`) and divided by its sum
  (`prob`): the attention probabilities, the layer's second result. The probabilities average the values
  (`mixed`), the average is added back to the posed rows (`resid`), and each row is normalised: its mean
  (`mean`) subtracted (`centred`), divided by the root of its variance plus a small constant, scaled and shifted
  feature by feature (`normed`), the layer's first result.

  The float constants are kept as their bit patterns: the same pattern on both sides of the claim is never evaluated.
-/
import Idealize.ShloMosaic.PureOps.Ideal
import Idealize.ShloMosaic.PureOps.Ideal.Laws

noncomputable section

namespace Cert.Layer

open Idealize.ShloMosaic

variable (xb pe : Fin 10 → Fin 1024 → EReal) (Wq Wk Wv : Fin 1024 → Fin 1024 → EReal)
  (bq bk bv gam bet : Fin 1024 → EReal)

/-- A row with the positional table added. -/
def posed (t : Fin 10) (d : Fin 1024) : EReal := xb t d + pe t d

/-- A rectified linear map of the posed rows: `max (∑ d, posed t d · W e d + b e) 0`. -/
def proj (W : Fin 1024 → Fin 1024 → EReal) (b : Fin 1024 → EReal) (t : Fin 10) (e : Fin 1024) : EReal :=
  max ((∑ d : Fin 1024, posed xb pe t d * W e d) + b e) (Ideal.ofBits .f32 0x00000000#32)

/-- The score of query row `t` against key row `s`: the scaled queries' inner product with the keys. -/
def score (t s : Fin 10) : EReal :=
  ∑ e : Fin 1024, (proj xb pe Wq bq t e * Ideal.ofBits .f32 0x3D000000#32) * proj xb pe Wk bk s e

/-- The largest score of row `t` (a maximum from −∞ over the ten scores, once more against −∞). -/
def rowMax (t : Fin 10) : EReal :=
  max (Ideal.ofBits .f32 0xFF800000#32)
    ((Finset.univ : Finset (Fin 10)).fold max (Ideal.ofBits .f32 0xFF800000#32) (fun s => score xb pe Wq Wk bq bk t s))

/-- The exponential of a score less its row's maximum. -/
def expo (t s : Fin 10) : EReal := Ideal.exp (score xb pe Wq Wk bq bk t s - rowMax xb pe Wq Wk bq bk t)

/-- The attention probability: the exponential over its row's sum. -/
def prob (t s : Fin 10) : EReal :=
  Ideal.div (expo xb pe Wq Wk bq bk t s) (∑ r : Fin 10, expo xb pe Wq Wk bq bk t r)

/-- The values averaged by the probabilities. -/
def mixed (t : Fin 10) (e : Fin 1024) : EReal :=
  ∑ s : Fin 10, prob xb pe Wq Wk bq bk t s * proj xb pe Wv bv s e

/-- The posed row plus the average. -/
def resid (t : Fin 10) (e : Fin 1024) : EReal := posed xb pe t e + mixed xb pe Wq Wk Wv bq bk bv t e

/-- A row's mean over its 1024 features. -/
def mean (t : Fin 10) : EReal :=
  Ideal.div (∑ e : Fin 1024, resid xb pe Wq Wk Wv bq bk bv t e) (Ideal.ofBits .f32 0x44800000#32)

/-- The row less its mean. -/
def centred (t : Fin 10) (e : Fin 1024) : EReal := resid xb pe Wq Wk Wv bq bk bv t e - mean xb pe Wq Wk Wv bq bk bv t

/-- A row's variance: the mean of the squares of the centred row. -/
def variance (t : Fin 10) : EReal :=
  Ideal.div (∑ e : Fin 1024, centred xb pe Wq Wk Wv bq bk bv t e * centred xb pe Wq Wk Wv bq bk bv t e)
    (Ideal.ofBits .f32 0x44800000#32)

/-- The normalised row, scaled and shifted feature by feature. -/
def normed (t : Fin 10) (e : Fin 1024) : EReal :=
  centred xb pe Wq Wk Wv bq bk bv t e
      * Ideal.rsqrt (variance xb pe Wq Wk Wv bq bk bv t + Ideal.ofBits .f32 0x3727C5AC#32) * gam e + bet e

end Cert.Layer

end
-- ==== Proof.LibBatchRows.lean ====
/-
  Rows grouped into batches, and the unit axes a kernel puts around row statistics, read at an index.

  A matrix of `m = a · b` rows recast as `a` batches of `b` rows keeps row-major order: batch `p`, row `t` is matrix
  row `p · b + t` (`rowsToBatches_apply`, `batchesToRows_apply`). A per-row statistic `[a, b]` given a trailing unit
  axis (`keepdims_apply`) and broadcast along it (`alongLast_apply`) is the statistic of the row at every feature. A
  table `[1, b, n]` broadcast over batches (`overBatches_apply`) and a feature vector `[n]` viewed as `[1, 1, n]` and
  broadcast over batches and rows (`asFeature_apply`, `overRows_apply`) read the operand at the coordinates they keep.
  Putting the reduced last coordinate back into `(p, t)` gives `(p, t, k)` (`lift_last`).
-/
import Idealize.ShloMosaic.Lib.Pipeline.Value
import Idealize.ShloMosaic.Lib.ValueIdx
import Idealize.ShloMosaic.PureOps.Reduce

namespace Cert.BatchRows

open Idealize.ShloMosaic Idealize.ShloMosaic.ValueIdx

variable {α : Type}

/-- `[m, n] → [a, b, n]`: batch `p`, row `t`, feature `d` is matrix row `r = p · b + t`, feature `d`. -/
theorem rowsToBatches_apply {m n a b : ℕ} (x : (⟨2, ![m, n]⟩ : Shape).Idx → α)
    (h : (⟨2, ![m, n]⟩ : Shape).ShapeCasts ⟨3, ![a, b, n]⟩) (p : Fin a) (t : Fin b) (d : Fin n) (r : Fin m)
    (hr : r.val = p.val * b + t.val) :
    shapeCast ⟨3, ![a, b, n]⟩ x h (ix3 p t d) = x (ix2 r d) :=
  shapeCast_apply x h _ _ (by
    rw [Shape.rowMajor_val_two, Shape.rowMajor_val_three]
    show r.val * n + d.val = (p.val * b + t.val) * n + d.val
    rw [hr])

/-- `[a, b, n] → [m, n]`: matrix row `r = p · b + t` is batch `p`, row `t`. -/
theorem batchesToRows_apply {m n a b : ℕ} (y : (⟨3, ![a, b, n]⟩ : Shape).Idx → α)
    (h : (⟨3, ![a, b, n]⟩ : Shape).ShapeCasts ⟨2, ![m, n]⟩) (p : Fin a) (t : Fin b) (d : Fin n) (r : Fin m)
    (hr : r.val = p.val * b + t.val) :
    shapeCast ⟨2, ![m, n]⟩ y h (ix2 r d) = y (ix3 p t d) :=
  shapeCast_apply y h _ _ (by
    rw [Shape.rowMajor_val_two, Shape.rowMajor_val_three]
    show (p.val * b + t.val) * n + d.val = r.val * n + d.val
    rw [hr])

/-- `[a, b] → [a, b, 1]`: a per-row statistic with a trailing unit axis. -/
theorem keepdims_apply {a b : ℕ} (x : (⟨2, ![a, b]⟩ : Shape).Idx → α)
    (h : (⟨2, ![a, b]⟩ : Shape).ShapeCasts ⟨3, ![a, b, 1]⟩) (p : Fin a) (t : Fin b) (u : Fin 1) :
    shapeCast ⟨3, ![a, b, 1]⟩ x h (ix3 p t u) = x (ix2 p t) :=
  shapeCast_apply x h _ _ (by
    rw [Shape.rowMajor_val_two, Shape.rowMajor_val_three]
    show p.val * b + t.val = (p.val * b + t.val) * 1 + u.val
    have := u.isLt; omega)

/-- `[a, b, 1] → [a, b, n]`: the statistic of row `(p, t)` at every feature. -/
theorem alongLast_apply {a b n : ℕ} (x : (⟨3, ![a, b, 1]⟩ : Shape).Idx → α)
    (h : (⟨3, ![a, b, 1]⟩ : Shape).Broadcasts ⟨3, ![a, b, n]⟩) (p : Fin a) (t : Fin b) (e : Fin n) :
    broadcastTo ⟨3, ![a, b, n]⟩ x h (ix3 p t e) = x (ix3 p t (0 : Fin 1)) := by
  refine broadcastTo_apply x h (ix3 p t e) (ix3 p t (0 : Fin 1)) fun ax => ?_
  match ax with
  | ⟨0, _⟩ =>
    show p.val = if a = 1 then 0 else p.val
    split
    · have := p.isLt; omega
    · rfl
  | ⟨1, _⟩ =>
    show t.val = if b = 1 then 0 else t.val
    split
    · have := t.isLt; omega
    · rfl
  | ⟨2, _⟩ => rfl

/-- `[1, b, n] → [a, b, n]`: one table for every batch. -/
theorem overBatches_apply {a b n : ℕ} (x : (⟨3, ![1, b, n]⟩ : Shape).Idx → α)
    (h : (⟨3, ![1, b, n]⟩ : Shape).Broadcasts ⟨3, ![a, b, n]⟩) (p : Fin a) (t : Fin b) (d : Fin n) :
    broadcastTo ⟨3, ![a, b, n]⟩ x h (ix3 p t d) = x (ix3 (0 : Fin 1) t d) := by
  refine broadcastTo_apply x h (ix3 p t d) (ix3 (0 : Fin 1) t d) fun ax => ?_
  match ax with
  | ⟨0, _⟩ => rfl
  | ⟨1, _⟩ =>
    show t.val = if b = 1 then 0 else t.val
    split
    · have := t.isLt; omega
    · rfl
  | ⟨2, _⟩ =>
    show d.val = if n = 1 then 0 else d.val
    split
    · have := d.isLt; omega
    · rfl

/-- `[n] → [1, 1, n]`: a feature vector as one row of one batch. -/
theorem asFeature_apply {n : ℕ} (v : (⟨1, ![n]⟩ : Shape).Idx → α)
    (h : (⟨1, ![n]⟩ : Shape).ShapeCasts ⟨3, ![1, 1, n]⟩) (u w : Fin 1) (e : Fin n) :
    shapeCast ⟨3, ![1, 1, n]⟩ v h (ix3 u w e) = v (ix1 e) :=
  shapeCast_apply v h _ _ (by
    rw [Shape.rowMajor_val_one, Shape.rowMajor_val_three]
    show e.val = (u.val * 1 + w.val) * n + e.val
    have := u.isLt; have := w.isLt
    have hu : u.val = 0 := by omega
    have hw : w.val = 0 := by omega
    rw [hu, hw]; simp)

/-- `[1, 1, n] → [a, b, n]`: a feature vector at every row of every batch. -/
theorem overRows_apply {a b n : ℕ} (x : (⟨3, ![1, 1, n]⟩ : Shape).Idx → α)
    (h : (⟨3, ![1, 1, n]⟩ : Shape).Broadcasts ⟨3, ![a, b, n]⟩) (p : Fin a) (t : Fin b) (e : Fin n) :
    broadcastTo ⟨3, ![a, b, n]⟩ x h (ix3 p t e) = x (ix3 (0 : Fin 1) (0 : Fin 1) e) := by
  refine broadcastTo_apply x h (ix3 p t e) (ix3 (0 : Fin 1) (0 : Fin 1) e) fun ax => ?_
  match ax with
  | ⟨0, _⟩ => rfl
  | ⟨1, _⟩ => rfl
  | ⟨2, _⟩ =>
    show e.val = if n = 1 then 0 else e.val
    split
    · have := e.isLt; omega
    · rfl

/-- The reduced index `(p, t)` of an `[a, b, n]` array with last coordinate `k` put back is `(p, t, k)`. -/
theorem lift_last {a b n : ℕ} (h : (⟨3, ![a, b, n]⟩ : Shape).Reduces [2] ⟨2, ![a, b]⟩) (p : Fin a) (t : Fin b)
    (k : Fin ((⟨3, ![a, b, n]⟩ : Shape).size 2)) :
    h.lift (ix2 p t) k = ix3 p t (⟨k.val, k.isLt⟩ : Fin n) := by
  funext c; apply Fin.ext; fin_cases c <;> rfl

end Cert.BatchRows
-- ==== Proof.KernelBody.lean ====
/-
  What the kernel's body computes, read at an index on the extended reals.

  The body's stored values are compositions of four pieces, each headed by one operation that is not pointwise:
  the fused projection (one product of the 640 posed rows with the `[1024, 3072]` weights, plus the bias, rectified),
  the scores (per batch element, scaled queries against keys), the row-wise softmax of the scores, and the residual
  followed by the row normalisation. Here each piece is written once as a function of its operands and read at an index:
  a product of matrices with a zero accumulator is the sum over the contracted coordinate, a sum along the last axis is
  the sum over that coordinate, a maximum along it is a fold of `max` from −∞, a change of float format is the identity,
  and the recasts between 640 rows and 64 batches of 10 rows keep row-major order (row `10 p + t` is batch `p`, row `t`).
  The generated payloads are these pieces composed, by unfolding.

  With the blocks read by coordinates — `rowsOf` (batch element `p` of the 640 rows), `tableOf`, `weightsOf` and
  `biasOf` (the 1024 columns from column `o` on), `featOf` — the pieces are the specification's `posed`, `proj`,
  `prob` and `normed` of batch element `p`.
-/
import proofs.«106989_j55602646614549_2_alg».proof.Proof.Gen.KernelIdeal.Skeleton
import proofs.«106989_j55602646614549_2_alg».proof.Proof.LayerSpec
import proofs.«106989_j55602646614549_2_alg».proof.Proof.LibBatchRows
import Idealize.ShloMosaic.Lib.ValueLayout
import Idealize.ShloMosaic.PureOps.Ideal.Laws

set_option maxRecDepth 16384

noncomputable section

namespace Cert.KernelIdeal.Body

open Cert.KernelIdeal Cert.KernelIdeal.Gen Cert.Layer Cert.BatchRows
open Idealize.ShloMosaic Idealize.ShloMosaic.ValueIdx

/-! ## The three products of matrices as sums -/

theorem projDot_l0 (i : S640x3072.Idx) (q : dot_S640x1024_S1024x3072_S640x3072_1_0_0_1_n_n.contr.Idx) : (dot_S640x1024_S1024x3072_S640x3072_1_0_0_1_n_n.lhsIdx i q 0).val = (i 0).val := by
  unfold DotDims.lhsIdx
  rw [dif_neg (show ¬(0 : Fin S640x1024.rank) ∈ dot_S640x1024_S1024x3072_S640x3072_1_0_0_1_n_n.lhsBatch by decide), dif_pos (show (0 : Fin S640x1024.rank) ∈ dot_S640x1024_S1024x3072_S640x3072_1_0_0_1_n_n.lhsNonContracting by decide)]
  rfl
theorem projDot_l1 (i : S640x3072.Idx) (q : dot_S640x1024_S1024x3072_S640x3072_1_0_0_1_n_n.contr.Idx) : (dot_S640x1024_S1024x3072_S640x3072_1_0_0_1_n_n.lhsIdx i q 1).val = (q ⟨0, by decide⟩).val :=
  dot_S640x1024_S1024x3072_S640x3072_1_0_0_1_n_n.lhsIdx_val_of_single rfl i q
theorem projDot_r0 (i : S640x3072.Idx) (q : dot_S640x1024_S1024x3072_S640x3072_1_0_0_1_n_n.contr.Idx) : (dot_S640x1024_S1024x3072_S640x3072_1_0_0_1_n_n.rhsIdx i q 0).val = (q ⟨0, by decide⟩).val :=
  dot_S640x1024_S1024x3072_S640x3072_1_0_0_1_n_n.rhsIdx_val_of_single rfl i q
theorem projDot_r1 (i : S640x3072.Idx) (q : dot_S640x1024_S1024x3072_S640x3072_1_0_0_1_n_n.contr.Idx) : (dot_S640x1024_S1024x3072_S640x3072_1_0_0_1_n_n.rhsIdx i q 1).val = (i 1).val := by
  unfold DotDims.rhsIdx
  rw [dif_neg (show ¬(1 : Fin S1024x3072.rank) ∈ dot_S640x1024_S1024x3072_S640x3072_1_0_0_1_n_n.rhsBatch by decide), dif_pos (show (1 : Fin S1024x3072.rank) ∈ dot_S640x1024_S1024x3072_S640x3072_1_0_0_1_n_n.rhsNonContracting by decide)]
  rfl

/-- The fused projection: row `r` of the left operand against column `c` of the right. -/
theorem projDot_apply (l : FVec Ideal S640x1024 .bf16) (r : FVec Ideal S1024x3072 .bf16) (p : Fin 640) (c : Fin 3072) :
    matmul dot_S640x1024_S1024x3072_S640x3072_1_0_0_1_n_n none l r (constant (F := Ideal) S640x3072 .f32 0x00000000#32) (ix2 p c)
      = ∑ k : Fin 1024, l (ix2 p k) * r (ix2 k c) := by
  simp only [matmul]
  rw [Ideal.matmul_constant_zero_apply, ← Equiv.sum_comp (contrEquiv1 dot_S640x1024_S1024x3072_S640x3072_1_0_0_1_n_n 1024 rfl rfl).symm]
  refine Finset.sum_congr rfl fun k _ => ?_
  have hk := contrEquiv1_symm_val dot_S640x1024_S1024x3072_S640x3072_1_0_0_1_n_n 1024 rfl rfl k
  have el : dot_S640x1024_S1024x3072_S640x3072_1_0_0_1_n_n.lhsIdx (ix2 p c) ((contrEquiv1 dot_S640x1024_S1024x3072_S640x3072_1_0_0_1_n_n 1024 rfl rfl).symm k) = ix2 p k := funext fun a => Fin.ext (by
    match a with
    | ⟨0, _⟩ => exact projDot_l0 _ _
    | ⟨1, _⟩ => exact (projDot_l1 _ _).trans hk)
  have er : dot_S640x1024_S1024x3072_S640x3072_1_0_0_1_n_n.rhsIdx (ix2 p c) ((contrEquiv1 dot_S640x1024_S1024x3072_S640x3072_1_0_0_1_n_n 1024 rfl rfl).symm k) = ix2 k c := funext fun a => Fin.ext (by
    match a with
    | ⟨0, _⟩ => exact (projDot_r0 _ _).trans hk
    | ⟨1, _⟩ => exact projDot_r1 _ _)
  rw [el, er]

theorem scoreDot_l0 (i : S64x10x10.Idx) (q : dot_S64x10x1024_S64x10x1024_S64x10x10_2_2_1_1_0_0.contr.Idx) : (dot_S64x10x1024_S64x10x1024_S64x10x10_2_2_1_1_0_0.lhsIdx i q 0).val = (i 0).val := by
  unfold DotDims.lhsIdx
  rw [dif_pos (show (0 : Fin S64x10x1024.rank) ∈ dot_S64x10x1024_S64x10x1024_S64x10x10_2_2_1_1_0_0.lhsBatch by decide)]
  rfl
theorem scoreDot_l1 (i : S64x10x10.Idx) (q : dot_S64x10x1024_S64x10x1024_S64x10x10_2_2_1_1_0_0.contr.Idx) : (dot_S64x10x1024_S64x10x1024_S64x10x10_2_2_1_1_0_0.lhsIdx i q 1).val = (i 1).val := by
  unfold DotDims.lhsIdx
  rw [dif_neg (show ¬(1 : Fin S64x10x1024.rank) ∈ dot_S64x10x1024_S64x10x1024_S64x10x10_2_2_1_1_0_0.lhsBatch by decide), dif_pos (show (1 : Fin S64x10x1024.rank) ∈ dot_S64x10x1024_S64x10x1024_S64x10x10_2_2_1_1_0_0.lhsNonContracting by decide)]
  rfl
theorem scoreDot_l2 (i : S64x10x10.Idx) (q : dot_S64x10x1024_S64x10x1024_S64x10x10_2_2_1_1_0_0.contr.Idx) : (dot_S64x10x1024_S64x10x1024_S64x10x10_2_2_1_1_0_0.lhsIdx i q 2).val = (q ⟨0, by decide⟩).val :=
  dot_S64x10x1024_S64x10x1024_S64x10x10_2_2_1_1_0_0.lhsIdx_val_of_single rfl i q
theorem scoreDot_r0 (i : S64x10x10.Idx) (q : dot_S64x10x1024_S64x10x1024_S64x10x10_2_2_1_1_0_0.contr.Idx) : (dot_S64x10x1024_S64x10x1024_S64x10x10_2_2_1_1_0_0.rhsIdx i q 0).val = (i 0).val := by
  unfold DotDims.rhsIdx
  rw [dif_pos (show (0 : Fin S64x10x1024.rank) ∈ dot_S64x10x1024_S64x10x1024_S64x10x10_2_2_1_1_0_0.rhsBatch by decide)]
  rfl
theorem scoreDot_r1 (i : S64x10x10.Idx) (q : dot_S64x10x1024_S64x10x1024_S64x10x10_2_2_1_1_0_0.contr.Idx) : (dot_S64x10x1024_S64x10x1024_S64x10x10_2_2_1_1_0_0.rhsIdx i q 1).val = (i 2).val := by
  unfold DotDims.rhsIdx
  rw [dif_neg (show ¬(1 : Fin S64x10x1024.rank) ∈ dot_S64x10x1024_S64x10x1024_S64x10x10_2_2_1_1_0_0.rhsBatch by decide), dif_pos (show (1 : Fin S64x10x1024.rank) ∈ dot_S64x10x1024_S64x10x1024_S64x10x10_2_2_1_1_0_0.rhsNonContracting by decide)]
  rfl
theorem scoreDot_r2 (i : S64x10x10.Idx) (q : dot_S64x10x1024_S64x10x1024_S64x10x10_2_2_1_1_0_0.contr.Idx) : (dot_S64x10x1024_S64x10x1024_S64x10x10_2_2_1_1_0_0.rhsIdx i q 2).val = (q ⟨0, by decide⟩).val :=
  dot_S64x10x1024_S64x10x1024_S64x10x10_2_2_1_1_0_0.rhsIdx_val_of_single rfl i q

/-- The scores: per batch element, row `t` of the left operand against row `s` of the right. -/
theorem scoreDot_apply (l r : FVec Ideal S64x10x1024 .bf16) (p : Fin 64) (t s : Fin 10) :
    matmul dot_S64x10x1024_S64x10x1024_S64x10x10_2_2_1_1_0_0 none l r (constant (F := Ideal) S64x10x10 .f32 0x00000000#32) (ix3 p t s)
      = ∑ k : Fin 1024, l (ix3 p t k) * r (ix3 p s k) := by
  simp only [matmul]
  rw [Ideal.matmul_constant_zero_apply, ← Equiv.sum_comp (contrEquiv1 dot_S64x10x1024_S64x10x1024_S64x10x10_2_2_1_1_0_0 1024 rfl rfl).symm]
  refine Finset.sum_congr rfl fun k _ => ?_
  have hk := contrEquiv1_symm_val dot_S64x10x1024_S64x10x1024_S64x10x10_2_2_1_1_0_0 1024 rfl rfl k
  have el : dot_S64x10x1024_S64x10x1024_S64x10x10_2_2_1_1_0_0.lhsIdx (ix3 p t s) ((contrEquiv1 dot_S64x10x1024_S64x10x1024_S64x10x10_2_2_1_1_0_0 1024 rfl rfl).symm k) = ix3 p t k := funext fun a => Fin.ext (by
    match a with
    | ⟨0, _⟩ => exact scoreDot_l0 _ _
    | ⟨1, _⟩ => exact scoreDot_l1 _ _
    | ⟨2, _⟩ => exact (scoreDot_l2 _ _).trans hk)
  have er : dot_S64x10x1024_S64x10x1024_S64x10x10_2_2_1_1_0_0.rhsIdx (ix3 p t s) ((contrEquiv1 dot_S64x10x1024_S64x10x1024_S64x10x10_2_2_1_1_0_0 1024 rfl rfl).symm k) = ix3 p s k := funext fun a => Fin.ext (by
    match a with
    | ⟨0, _⟩ => exact scoreDot_r0 _ _
    | ⟨1, _⟩ => exact scoreDot_r1 _ _
    | ⟨2, _⟩ => exact (scoreDot_r2 _ _).trans hk)
  rw [el, er]

theorem mixDot_l0 (i : S64x10x1024.Idx) (q : dot_S64x10x10_S64x10x1024_S64x10x1024_2_1_1_2_0_0.contr.Idx) : (dot_S64x10x10_S64x10x1024_S64x10x1024_2_1_1_2_0_0.lhsIdx i q 0).val = (i 0).val := by
  unfold DotDims.lhsIdx
  rw [dif_pos (show (0 : Fin S64x10x10.rank) ∈ dot_S64x10x10_S64x10x1024_S64x10x1024_2_1_1_2_0_0.lhsBatch by decide)]
  rfl
theorem mixDot_l1 (i : S64x10x1024.Idx) (q : dot_S64x10x10_S64x10x1024_S64x10x1024_2_1_1_2_0_0.contr.Idx) : (dot_S64x10x10_S64x10x1024_S64x10x1024_2_1_1_2_0_0.lhsIdx i q 1).val = (i 1).val := by
  unfold DotDims.lhsIdx
  rw [dif_neg (show ¬(1 : Fin S64x10x10.rank) ∈ dot_S64x10x10_S64x10x1024_S64x10x1024_2_1_1_2_0_0.lhsBatch by decide), dif_pos (show (1 : Fin S64x10x10.rank) ∈ dot_S64x10x10_S64x10x1024_S64x10x1024_2_1_1_2_0_0.lhsNonContracting by decide)]
  rfl
theorem mixDot_l2 (i : S64x10x1024.Idx) (q : dot_S64x10x10_S64x10x1024_S64x10x1024_2_1_1_2_0_0.contr.Idx) : (dot_S64x10x10_S64x10x1024_S64x10x1024_2_1_1_2_0_0.lhsIdx i q 2).val = (q ⟨0, by decide⟩).val :=
  dot_S64x10x10_S64x10x1024_S64x10x1024_2_1_1_2_0_0.lhsIdx_val_of_single rfl i q
theorem mixDot_r0 (i : S64x10x1024.Idx) (q : dot_S64x10x10_S64x10x1024_S64x10x1024_2_1_1_2_0_0.contr.Idx) : (dot_S64x10x10_S64x10x1024_S64x10x1024_2_1_1_2_0_0.rhsIdx i q 0).val = (i 0).val := by
  unfold DotDims.rhsIdx
  rw [dif_pos (show (0 : Fin S64x10x1024.rank) ∈ dot_S64x10x10_S64x10x1024_S64x10x1024_2_1_1_2_0_0.rhsBatch by decide)]
  rfl
theorem mixDot_r1 (i : S64x10x1024.Idx) (q : dot_S64x10x10_S64x10x1024_S64x10x1024_2_1_1_2_0_0.contr.Idx) : (dot_S64x10x10_S64x10x1024_S64x10x1024_2_1_1_2_0_0.rhsIdx i q 1).val = (q ⟨0, by decide⟩).val :=
  dot_S64x10x10_S64x10x1024_S64x10x1024_2_1_1_2_0_0.rhsIdx_val_of_single rfl i q
theorem mixDot_r2 (i : S64x10x1024.Idx) (q : dot_S64x10x10_S64x10x1024_S64x10x1024_2_1_1_2_0_0.contr.Idx) : (dot_S64x10x10_S64x10x1024_S64x10x1024_2_1_1_2_0_0.rhsIdx i q 2).val = (i 2).val := by
  unfold DotDims.rhsIdx
  rw [dif_neg (show ¬(2 : Fin S64x10x1024.rank) ∈ dot_S64x10x10_S64x10x1024_S64x10x1024_2_1_1_2_0_0.rhsBatch by decide), dif_pos (show (2 : Fin S64x10x1024.rank) ∈ dot_S64x10x10_S64x10x1024_S64x10x1024_2_1_1_2_0_0.rhsNonContracting by decide)]
  rfl

/-- The average of the values: per batch element, row `t` of the probabilities against column `e` of the values. -/
theorem mixDot_apply (l : FVec Ideal S64x10x10 .bf16) (r : FVec Ideal S64x10x1024 .bf16) (p : Fin 64) (t : Fin 10) (e : Fin 1024) :
    matmul dot_S64x10x10_S64x10x1024_S64x10x1024_2_1_1_2_0_0 none l r (constant (F := Ideal) S64x10x1024 .f32 0x00000000#32) (ix3 p t e)
      = ∑ k : Fin 10, l (ix3 p t k) * r (ix3 p k e) := by
  simp only [matmul]
  rw [Ideal.matmul_constant_zero_apply, ← Equiv.sum_comp (contrEquiv1 dot_S64x10x10_S64x10x1024_S64x10x1024_2_1_1_2_0_0 10 rfl rfl).symm]
  refine Finset.sum_congr rfl fun k _ => ?_
  have hk := contrEquiv1_symm_val dot_S64x10x10_S64x10x1024_S64x10x1024_2_1_1_2_0_0 10 rfl rfl k
  have el : dot_S64x10x10_S64x10x1024_S64x10x1024_2_1_1_2_0_0.lhsIdx (ix3 p t e) ((contrEquiv1 dot_S64x10x10_S64x10x1024_S64x10x1024_2_1_1_2_0_0 10 rfl rfl).symm k) = ix3 p t k := funext fun a => Fin.ext (by
    match a with
    | ⟨0, _⟩ => exact mixDot_l0 _ _
    | ⟨1, _⟩ => exact mixDot_l1 _ _
    | ⟨2, _⟩ => exact (mixDot_l2 _ _).trans hk)
  have er : dot_S64x10x10_S64x10x1024_S64x10x1024_2_1_1_2_0_0.rhsIdx (ix3 p t e) ((contrEquiv1 dot_S64x10x10_S64x10x1024_S64x10x1024_2_1_1_2_0_0 10 rfl rfl).symm k) = ix3 p k e := funext fun a => Fin.ext (by
    match a with
    | ⟨0, _⟩ => exact mixDot_r0 _ _
    | ⟨1, _⟩ => exact (mixDot_r1 _ _).trans hk
    | ⟨2, _⟩ => exact mixDot_r2 _ _)
  rw [el, er]

/-! ## Rows and columns of the blocks -/

/-- Row `t` of batch element `p` among the block's 640 rows. -/
def rowOf (p : Fin 64) (t : Fin 10) : Fin 640 := ⟨p.val * 10 + t.val, by have := p.isLt; have := t.isLt; omega⟩
theorem rowOf_val (p : Fin 64) (t : Fin 10) : (rowOf p t).val = p.val * 10 + t.val := rfl
/-- Column `e` of the 1024 columns from column `o` on, among the fused 3072. -/
def colOf (o : ℕ) (ho : o + 1024 ≤ 3072) (e : Fin 1024) : Fin 3072 := ⟨o + e.val, by have := e.isLt; omega⟩

/-- Batch element `p` of the 640 rows. -/
def rowsOf (v0 : Vec Ideal S640x1024 .f32) (p : Fin 64) : Fin 10 → Fin 1024 → EReal := fun t d => v0 (ix2 (rowOf p t) d)
/-- The positional table's rows. -/
def tableOf (v3 : Vec Ideal S1x10x1024 .f32) : Fin 10 → Fin 1024 → EReal := fun t d => v3 (ix3 (0 : Fin 1) t d)
/-- The weights of the 1024 output features from column `o` on, output feature first. -/
def weightsOf (v8 : Vec Ideal S1024x3072 .bf16) (o : ℕ) (ho : o + 1024 ≤ 3072) : Fin 1024 → Fin 1024 → EReal :=
  fun e d => v8 (ix2 d (colOf o ho e))
/-- The bias of those features. -/
def biasOf (v11 : Vec Ideal S3072 .f32) (o : ℕ) (ho : o + 1024 ≤ 3072) : Fin 1024 → EReal := fun e => v11 (ix1 (colOf o ho e))
/-- A feature vector. -/
def featOf (v : Vec Ideal S1024 .f32) : Fin 1024 → EReal := fun e => v (ix1 e)

/-! ## The posed rows and the fused projection -/

variable (v0 : Vec Ideal S640x1024 .f32) (v3 : Vec Ideal S1x10x1024 .f32) (v8 : Vec Ideal S1024x3072 .bf16) (v11 : Vec Ideal S3072 .f32)

theorem posed_block (p : Fin 64) (t : Fin 10) (d : Fin 1024) :
    k0_pay2 v0 v3 (ix3 p t d) = posed (rowsOf v0 p) (tableOf v3) t d := by
  unfold k0_pay2
  rw [addf_apply, rowsToBatches_apply _ _ p t d (rowOf p t) (rowOf_val p t), shapeCast_self, overBatches_apply]
  rfl

theorem fused_block (p : Fin 64) (t : Fin 10) (o : ℕ) (ho : o + 1024 ≤ 3072) (e : Fin 1024) :
    k0_pay3 v0 v3 v8 v11 (ix2 (rowOf p t) (colOf o ho e))
      = proj (rowsOf v0 p) (tableOf v3) (weightsOf v8 o ho) (biasOf v11 o ho) t e := by
  unfold k0_pay3
  rw [maximumf_apply, addf_apply, projDot_apply, broadcast_apply, broadcastTo_1b_ab_apply, shapeCast_a_1a_apply]
  simp only [shapeCast_self]
  refine congrArg₂ max (congrArg₂ (· + ·) (Finset.sum_congr rfl fun k _ => ?_) rfl) rfl
  rw [truncf_apply, batchesToRows_apply _ _ p t k (rowOf p t) (rowOf_val p t), posed_block]
  rfl

/-- The values, batch by batch: columns 2048 on of the fused projection. -/
theorem values_block (p : Fin 64) (t : Fin 10) (e : Fin 1024) :
    k0_pay4 v0 v3 v8 v11 (ix3 p t e)
      = proj (rowsOf v0 p) (tableOf v3) (weightsOf v8 2048 (by decide)) (biasOf v11 2048 (by decide)) t e := by
  unfold k0_pay4
  rw [truncf_apply, rowsToBatches_apply _ _ p t e (rowOf p t) (rowOf_val p t),
    slice2_axis1_apply 2048 _ _ (rowOf p t) e (colOf 2048 (by decide) e) rfl, fused_block]

/-! ## The scores -/

/-- The table of scores as the body computes it from the fused projection `u`. -/
def scoresK (u : FVec Ideal S640x3072 .f32) : FVec Ideal S64x10x10 .f32 :=
  matmul dot_S64x10x1024_S64x10x1024_S64x10x10_2_2_1_1_0_0 none
    (truncf .bf16 (shapeCast S64x10x1024 (mulf (extractStridedSlice S640x1024 ![0, 0] u slices_S640x3072_o0_0_S640x1024)
      (broadcast S640x1024 (Scalar.ofBits .f32 0x3D000000#32))) shapeCasts_S640x1024_S64x10x1024) bitsLt_bf16_f32)
    (truncf .bf16 (shapeCast S64x10x1024 (extractStridedSlice S640x1024 ![0, 1024] u slices_S640x3072_o0_1024_S640x1024)
      shapeCasts_S640x1024_S64x10x1024) bitsLt_bf16_f32)
    (constant S64x10x10 .f32 0x00000000#32)

theorem scoresK_apply (u : FVec Ideal S640x3072 .f32) (p : Fin 64) (t s : Fin 10) :
    scoresK u (ix3 p t s)
      = ∑ k : Fin 1024, (u (ix2 (rowOf p t) (colOf 0 (by decide) k)) * Ideal.ofBits .f32 0x3D000000#32)
          * u (ix2 (rowOf p s) (colOf 1024 (by decide) k)) := by
  unfold scoresK
  rw [scoreDot_apply]
  refine Finset.sum_congr rfl fun k _ => ?_
  rw [truncf_apply, truncf_apply, rowsToBatches_apply _ _ p t k (rowOf p t) (rowOf_val p t),
    rowsToBatches_apply _ _ p s k (rowOf p s) (rowOf_val p s), mulf_apply, broadcast_apply,
    slice2_axis1_apply 0 _ _ (rowOf p t) k (colOf 0 (by decide) k) (by show 0 + k.val = 0 + k.val; rfl),
    slice2_axis1_apply 1024 _ _ (rowOf p s) k (colOf 1024 (by decide) k) rfl]
  rfl

/-! ## The softmax along the last axis -/

/-- The row-wise softmax as the body computes it. -/
def softmaxK (L : FVec Ideal S64x10x10 .f32) : FVec Ideal S64x10x10 .f32 :=
  divf
    (exp (subf L (broadcastTo S64x10x10 (shapeCast S64x10x1
      (maximumf (broadcast S64x10 (Scalar.ofBits .f32 0xFF800000#32))
        (multiReduction .maximumf [2] S64x10 L 0xFF800000#32 reduces_S64x10x10_S64x10 (.inl rfl) rfl))
      shapeCasts_S64x10_S64x10x1) broadcasts_S64x10x1_S64x10x10)))
    (broadcastTo S64x10x10 (shapeCast S64x10x1
      (multiReduction .add [2] S64x10
        (exp (subf L (broadcastTo S64x10x10 (shapeCast S64x10x1
          (maximumf (broadcast S64x10 (Scalar.ofBits .f32 0xFF800000#32))
            (multiReduction .maximumf [2] S64x10 L 0xFF800000#32 reduces_S64x10x10_S64x10 (.inl rfl) rfl))
          shapeCasts_S64x10_S64x10x1) broadcasts_S64x10x1_S64x10x10)))
        0x00000000#32 reduces_S64x10x10_S64x10 (.inl rfl) rfl)
      shapeCasts_S64x10_S64x10x1) broadcasts_S64x10x1_S64x10x10)

/-- The shifted exponential of the softmax at `(p, t, s)`. -/
theorem softmax_num (L : FVec Ideal S64x10x10 .f32) (p : Fin 64) (t s : Fin 10) :
    exp (subf L (broadcastTo S64x10x10 (shapeCast S64x10x1
      (maximumf (broadcast S64x10 (Scalar.ofBits .f32 0xFF800000#32))
        (multiReduction .maximumf [2] S64x10 L 0xFF800000#32 reduces_S64x10x10_S64x10 (.inl rfl) rfl))
      shapeCasts_S64x10_S64x10x1) broadcasts_S64x10x1_S64x10x10)) (ix3 p t s)
      = Ideal.exp (L (ix3 p t s) - max (Ideal.ofBits .f32 0xFF800000#32)
          ((Finset.univ : Finset (Fin 10)).fold max (Ideal.ofBits .f32 0xFF800000#32) (fun r => L (ix3 p t r)))) := by
  have hmx : multiReduction .maximumf [2] S64x10 L 0xFF800000#32 reduces_S64x10x10_S64x10 (.inl rfl) rfl (ix2 p t)
      = (Finset.univ : Finset (Fin 10)).fold max (Ideal.ofBits .f32 0xFF800000#32) (fun r => L (ix3 p t r)) :=
    (Ideal.multiReduction_maximumf_single L 0xFF800000#32 reduces_S64x10x10_S64x10 (.inl rfl) rfl (ix2 p t)).trans
      (congrArg (fun f => Finset.fold max (Ideal.ofBits .f32 0xFF800000#32) f (Finset.univ : Finset (Fin 10)))
        (funext fun k => congrArg L (lift_last reduces_S64x10x10_S64x10 p t k)))
  show Ideal.exp (L (ix3 p t s) - _) = _
  rw [alongLast_apply, keepdims_apply, maximumf_apply, broadcast_apply, hmx]
  rfl

theorem softmaxK_apply (L : FVec Ideal S64x10x10 .f32) (p : Fin 64) (t s : Fin 10) :
    softmaxK L (ix3 p t s)
      = Ideal.div (Ideal.exp (L (ix3 p t s) - max (Ideal.ofBits .f32 0xFF800000#32)
            ((Finset.univ : Finset (Fin 10)).fold max (Ideal.ofBits .f32 0xFF800000#32) (fun r => L (ix3 p t r)))))
          (∑ q : Fin 10, Ideal.exp (L (ix3 p t q) - max (Ideal.ofBits .f32 0xFF800000#32)
            ((Finset.univ : Finset (Fin 10)).fold max (Ideal.ofBits .f32 0xFF800000#32) (fun r => L (ix3 p t r))))) := by
  unfold softmaxK
  rw [divf_apply, softmax_num, alongLast_apply, keepdims_apply]
  refine congrArg (Ideal.div _) ?_
  refine (Ideal.multiReduction_add_single _ 0x00000000#32 reduces_S64x10x10_S64x10 (.inl rfl) rfl (ix2 p t)).trans ?_
  refine Finset.sum_congr rfl fun k _ => ?_
  rw [lift_last reduces_S64x10x10_S64x10 p t k]
  exact softmax_num L p t ⟨k.val, k.isLt⟩

theorem probs_payload : k0_pay5 v0 v3 v8 v11 = softmaxK (scoresK (k0_pay3 v0 v3 v8 v11)) := rfl

/-- The stored probabilities at `(p, t, s)` are the specification's, of batch element `p` of the block. -/
theorem probs_block (p : Fin 64) (t s : Fin 10) :
    k0_pay5 v0 v3 v8 v11 (ix3 p t s)
      = prob (rowsOf v0 p) (tableOf v3) (weightsOf v8 0 (by decide)) (weightsOf v8 1024 (by decide))
          (biasOf v11 0 (by decide)) (biasOf v11 1024 (by decide)) t s := by
  rw [probs_payload, softmaxK_apply]
  simp only [scoresK_apply, fused_block]
  rfl

/-! ## The residual and the row normalisation -/

/-- The posed rows plus the probabilities' average of the values, as the body computes it. -/
def residK (v5 : FVec Ideal S64x10x1024 .f32) (v28 : FVec Ideal S64x10x1024 .bf16) (v40 : FVec Ideal S64x10x10 .f32) :
    FVec Ideal S64x10x1024 .f32 :=
  addf v5 (matmul dot_S64x10x10_S64x10x1024_S64x10x1024_2_1_1_2_0_0 none (truncf .bf16 v40 bitsLt_bf16_f32) v28 (constant S64x10x1024 .f32 0x00000000#32))

theorem residK_apply (v5 : FVec Ideal S64x10x1024 .f32) (v28 : FVec Ideal S64x10x1024 .bf16) (v40 : FVec Ideal S64x10x10 .f32)
    (p : Fin 64) (t : Fin 10) (e : Fin 1024) :
    residK v5 v28 v40 (ix3 p t e) = v5 (ix3 p t e) + ∑ s : Fin 10, v40 (ix3 p t s) * v28 (ix3 p s e) := by
  unfold residK
  rw [addf_apply, mixDot_apply]
  rfl

/-- A row's sum over its 1024 features divided by 1024, with a trailing unit axis, as the body computes it. -/
def rowMeanK (X : FVec Ideal S64x10x1024 .f32) : FVec Ideal S64x10x1 .f32 :=
  divf (shapeCast S64x10x1 (multiReduction .add [2] S64x10 X 0x00000000#32 reduces_S64x10x1024_S64x10 (.inl rfl) rfl)
    shapeCasts_S64x10_S64x10x1) (broadcast S64x10x1 (Scalar.ofBits .f32 0x44800000#32))

theorem rowMeanK_apply (X : FVec Ideal S64x10x1024 .f32) (p : Fin 64) (t : Fin 10) (u : Fin 1) :
    rowMeanK X (ix3 p t u) = Ideal.div (∑ e : Fin 1024, X (ix3 p t e)) (Ideal.ofBits .f32 0x44800000#32) := by
  unfold rowMeanK
  rw [divf_apply, keepdims_apply, broadcast_apply]
  refine congrArg₂ Ideal.div ?_ rfl
  refine (Ideal.multiReduction_add_single X 0x00000000#32 reduces_S64x10x1024_S64x10 (.inl rfl) rfl (ix2 p t)).trans ?_
  exact Finset.sum_congr rfl fun k _ => congrArg X (lift_last reduces_S64x10x1024_S64x10 p t k)

/-- The row normalisation, scale and shift, back as 640 rows, as the body computes it. -/
def normK (X : FVec Ideal S64x10x1024 .f32) (v63 v67 : Vec Ideal S1024 .f32) : FVec Ideal S640x1024 .f32 :=
  shapeCast S640x1024
    (addf (mulf (mulf (subf X (broadcastTo S64x10x1024 (rowMeanK X) broadcasts_S64x10x1_S64x10x1024))
      (broadcastTo S64x10x1024 (rsqrt (addf
        (rowMeanK (mulf (subf X (broadcastTo S64x10x1024 (rowMeanK X) broadcasts_S64x10x1_S64x10x1024))
          (subf X (broadcastTo S64x10x1024 (rowMeanK X) broadcasts_S64x10x1_S64x10x1024))))
        (broadcast S64x10x1 (Scalar.ofBits .f32 0x3727C5AC#32)))) broadcasts_S64x10x1_S64x10x1024))
      (broadcastTo S64x10x1024 (shapeCast S1x1x1024 v63 shapeCasts_S1024_S1x1x1024) broadcasts_S1x1x1024_S64x10x1024))
      (broadcastTo S64x10x1024 (shapeCast S1x1x1024 v67 shapeCasts_S1024_S1x1x1024) broadcasts_S1x1x1024_S64x10x1024))
    shapeCasts_S64x10x1024_S640x1024

theorem normK_apply (X : FVec Ideal S64x10x1024 .f32) (v63 v67 : Vec Ideal S1024 .f32) (p : Fin 64) (t : Fin 10) (e : Fin 1024) :
    normK X v63 v67 (ix2 (rowOf p t) e)
      = (X (ix3 p t e) - Ideal.div (∑ d : Fin 1024, X (ix3 p t d)) (Ideal.ofBits .f32 0x44800000#32))
          * Ideal.rsqrt (Ideal.div (∑ d : Fin 1024,
                (X (ix3 p t d) - Ideal.div (∑ d' : Fin 1024, X (ix3 p t d')) (Ideal.ofBits .f32 0x44800000#32))
                  * (X (ix3 p t d) - Ideal.div (∑ d' : Fin 1024, X (ix3 p t d')) (Ideal.ofBits .f32 0x44800000#32)))
              (Ideal.ofBits .f32 0x44800000#32) + Ideal.ofBits .f32 0x3727C5AC#32)
          * v63 (ix1 e) + v67 (ix1 e) := by
  unfold normK
  rw [batchesToRows_apply _ _ p t e (rowOf p t) (rowOf_val p t), addf_apply, mulf_apply, mulf_apply, subf_apply,
    alongLast_apply, rowMeanK_apply, alongLast_apply, overRows_apply, asFeature_apply, overRows_apply, asFeature_apply]
  show _ * Ideal.rsqrt (rowMeanK _ (ix3 p t (0 : Fin 1)) + _) * _ + _ = _
  rw [rowMeanK_apply]
  simp only [mulf_apply, subf_apply, alongLast_apply, rowMeanK_apply]
  rfl

theorem normed_payload (v5 : FVec Ideal S64x10x1024 .f32) (v28 : FVec Ideal S64x10x1024 .bf16) (v40 : FVec Ideal S64x10x10 .f32)
    (v63 v67 : Vec Ideal S1024 .f32) : k0_pay1 v5 v28 v40 v63 v67 = normK (residK v5 v28 v40) v63 v67 := rfl

/-- The stored normalised rows at row `10 p + t`, feature `e`, are the specification's, of batch element `p` of the block. -/
theorem normed_block (v63 v67 : Vec Ideal S1024 .f32) (p : Fin 64) (t : Fin 10) (e : Fin 1024) :
    k0_pay1 (k0_pay2 v0 v3) (k0_pay4 v0 v3 v8 v11) (k0_pay5 v0 v3 v8 v11) v63 v67 (ix2 (rowOf p t) e)
      = normed (rowsOf v0 p) (tableOf v3) (weightsOf v8 0 (by decide)) (weightsOf v8 1024 (by decide)) (weightsOf v8 2048 (by decide))
          (biasOf v11 0 (by decide)) (biasOf v11 1024 (by decide)) (biasOf v11 2048 (by decide)) (featOf v63) (featOf v67) t e := by
  rw [normed_payload, normK_apply]
  simp only [residK_apply, posed_block, values_block, probs_block]
  rfl

end Cert.KernelIdeal.Body

end
-- ==== Proof.LibNary3.lean ====
/-
  A host operation with three operands, read at its result.

  An operation over a literal family of three operand buffers leaves at its result buffer its function of the three
  operands' contents, each at its own buffer (`nary3_result`): stated so, the operands' contents can be rewritten in
  turn by the results of the operations before it. `after_results3` is the fold of a line of host operations at one
  buffer with this reading of a three-operand operation.
-/
import Idealize.ShloMosaic.Lib.StableHlo.Run

namespace Idealize.ShloMosaic.StableHlo

variable {τ : Topo} {sig : RefSig} {Val : EltTy → Type}

/-- The result of an operation over three operand buffers, each operand's contents at its own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The contents of one buffer after a line of host operations, three-operand operations read operand by operand. -/
macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo
-- ==== Proof.KernelEntry.lean ====
/-
  The arrays the region finds, read at an index from the argument arrays.

  Before the region the host lays the activations out as `81920 = 8192 · 10` rows (row `10 b + t` is batch element
  `b`, row `t`), transposes the three weight matrices and joins them along the columns — columns `0 … 1023` the
  queries' weights, `1024 … 2047` the keys', `2048 … 3071` the values', so column `o + e` of row `d` is entry `(e, d)` of
  the matrix whose columns start at `o` — in the narrower float format (on the extended reals: unchanged), and joins
  the three bias vectors end to end. The positional table, the scale and the shift are windows of argument arrays.
-/
import proofs.«106989_j55602646614549_2_alg».proof.Proof.KernelIdealAround
import proofs.«106989_j55602646614549_2_alg».proof.Proof.KernelBody
import proofs.«106989_j55602646614549_2_alg».proof.Proof.LibNary3
import Idealize.ShloMosaic.Lib.ValueLayout

set_option maxRecDepth 16384

noncomputable section

namespace Cert.KernelIdeal.Entry

open Cert.KernelIdeal Cert.KernelIdeal.Gen Cert.KernelIdeal.Around Cert.KernelIdeal.Body Cert.BatchRows
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The activations as rows. -/
theorem rows_eq : (ent m c main_v6 : S81920x1024.Idx → EReal)
    = shapeCast S81920x1024 (m ((c.tc : Thread nD τ).loc main_arg0)) shapeCasts_S8192x10x1024_S81920x1024 := by
  show StableHlo.after hostOps0 (fun b => m (c, b)) (Proc.devRef .tc main_v6) = _
  after_results3
  rfl

theorem rows_at (b : Fin 8192) (t : Fin 10) (d : Fin 1024) (R : Fin 81920) (hR : R.val = b.val * 10 + t.val) :
    (ent m c main_v6 : S81920x1024.Idx → EReal) (ix2 R d) = (m ((c.tc : Thread nD τ).loc main_arg0)) (ix3 b t d) := by
  rw [rows_eq]
  exact batchesToRows_apply _ _ b t d R hR

/-- The fused weights. -/
theorem weights_eq : (ent m c main_v4 : S1024x3072.Idx → EReal)
    = truncf (F := Ideal) .bf16 (concatenate S1024x3072 1
        [⟨S1024x1024, transpose S1024x1024 [1, 0] (m ((c.tc : Thread nD τ).loc main_arg2)) transposes_S1024x1024_S1024x1024_1_0⟩,
         ⟨S1024x1024, transpose S1024x1024 [1, 0] (m ((c.tc : Thread nD τ).loc main_arg4)) transposes_S1024x1024_S1024x1024_1_0⟩,
         ⟨S1024x1024, transpose S1024x1024 [1, 0] (m ((c.tc : Thread nD τ).loc main_arg6)) transposes_S1024x1024_S1024x1024_1_0⟩]
        concatenates_S1024x1024_S1024x1024_S1024x1024_S1024x3072_d1) bitsLt_bf16_f32 := by
  show StableHlo.after hostOps0 (fun b => m (c, b)) (Proc.devRef .tc main_v4) = _
  after_results3
  rfl

theorem weights0_at (d e : Fin 1024) :
    (ent m c main_v4 : S1024x3072.Idx → EReal) (ix2 d (colOf 0 (by decide) e)) = (m ((c.tc : Thread nD τ).loc main_arg2)) (ix2 e d) := by
  rw [weights_eq, truncf_apply]
  refine (concatenate_apply_piece (α := EReal) (t := S1024x3072) (1 : Fin 2)
    ([⟨S1024x1024, transpose S1024x1024 [1, 0] (m ((c.tc : Thread nD τ).loc main_arg2)) transposes_S1024x1024_S1024x1024_1_0⟩,
         ⟨S1024x1024, transpose S1024x1024 [1, 0] (m ((c.tc : Thread nD τ).loc main_arg4)) transposes_S1024x1024_S1024x1024_1_0⟩,
         ⟨S1024x1024, transpose S1024x1024 [1, 0] (m ((c.tc : Thread nD τ).loc main_arg6)) transposes_S1024x1024_S1024x1024_1_0⟩] : List ((s : Shape) × (s.Idx → EReal)))
    concatenates_S1024x1024_S1024x1024_S1024x1024_S1024x3072_d1 (ix2 d (colOf 0 (by decide) e)) 0 (by simp) S1024x1024 _ rfl rfl 0 (by rfl)
    (ix2 d e) (fun b hb => ?_) (by rfl)).trans (transpose_ix2_apply _ _ d e)
  fin_cases b
  · rfl
  · exact absurd rfl hb

theorem weights1_at (d e : Fin 1024) :
    (ent m c main_v4 : S1024x3072.Idx → EReal) (ix2 d (colOf 1024 (by decide) e)) = (m ((c.tc : Thread nD τ).loc main_arg4)) (ix2 e d) := by
  rw [weights_eq, truncf_apply]
  refine (concatenate_apply_piece (α := EReal) (t := S1024x3072) (1 : Fin 2)
    ([⟨S1024x1024, transpose S1024x1024 [1, 0] (m ((c.tc : Thread nD τ).loc main_arg2)) transposes_S1024x1024_S1024x1024_1_0⟩,
         ⟨S1024x1024, transpose S1024x1024 [1, 0] (m ((c.tc : Thread nD τ).loc main_arg4)) transposes_S1024x1024_S1024x1024_1_0⟩,
         ⟨S1024x1024, transpose S1024x1024 [1, 0] (m ((c.tc : Thread nD τ).loc main_arg6)) transposes_S1024x1024_S1024x1024_1_0⟩] : List ((s : Shape) × (s.Idx → EReal)))
    concatenates_S1024x1024_S1024x1024_S1024x1024_S1024x3072_d1 (ix2 d (colOf 1024 (by decide) e)) 1 (by simp) S1024x1024 _ rfl rfl 1024 (by rfl)
    (ix2 d e) (fun b hb => ?_) (by rfl)).trans (transpose_ix2_apply _ _ d e)
  fin_cases b
  · rfl
  · exact absurd rfl hb

theorem weights2_at (d e : Fin 1024) :
    (ent m c main_v4 : S1024x3072.Idx → EReal) (ix2 d (colOf 2048 (by decide) e)) = (m ((c.tc : Thread nD τ).loc main_arg6)) (ix2 e d) := by
  rw [weights_eq, truncf_apply]
  refine (concatenate_apply_piece (α := EReal) (t := S1024x3072) (1 : Fin 2)
    ([⟨S1024x1024, transpose S1024x1024 [1, 0] (m ((c.tc : Thread nD τ).loc main_arg2)) transposes_S1024x1024_S1024x1024_1_0⟩,
         ⟨S1024x1024, transpose S1024x1024 [1, 0] (m ((c.tc : Thread nD τ).loc main_arg4)) transposes_S1024x1024_S1024x1024_1_0⟩,
         ⟨S1024x1024, transpose S1024x1024 [1, 0] (m ((c.tc : Thread nD τ).loc main_arg6)) transposes_S1024x1024_S1024x1024_1_0⟩] : List ((s : Shape) × (s.Idx → EReal)))
    concatenates_S1024x1024_S1024x1024_S1024x1024_S1024x3072_d1 (ix2 d (colOf 2048 (by decide) e)) 2 (by simp) S1024x1024 _ rfl rfl 2048 (by rfl)
    (ix2 d e) (fun b hb => ?_) (by rfl)).trans (transpose_ix2_apply _ _ d e)
  fin_cases b
  · rfl
  · exact absurd rfl hb

/-- The fused bias. -/
theorem bias_eq : (ent m c main_v5 : S3072.Idx → EReal)
    = concatenate S3072 0 [⟨S1024, (m ((c.tc : Thread nD τ).loc main_arg3))⟩, ⟨S1024, (m ((c.tc : Thread nD τ).loc main_arg5))⟩, ⟨S1024, (m ((c.tc : Thread nD τ).loc main_arg7))⟩]
        concatenates_S1024_S1024_S1024_S3072_d0 := by
  show StableHlo.after hostOps0 (fun b => m (c, b)) (Proc.devRef .tc main_v5) = _
  after_results3
  rfl

theorem bias0_at (e : Fin 1024) :
    (ent m c main_v5 : S3072.Idx → EReal) (ix1 (colOf 0 (by decide) e)) = (m ((c.tc : Thread nD τ).loc main_arg3)) (ix1 e) := by
  rw [bias_eq]
  refine concatenate_apply_piece (α := EReal) (t := S3072) (0 : Fin 1)
    ([⟨S1024, (m ((c.tc : Thread nD τ).loc main_arg3))⟩, ⟨S1024, (m ((c.tc : Thread nD τ).loc main_arg5))⟩, ⟨S1024, (m ((c.tc : Thread nD τ).loc main_arg7))⟩] : List ((s : Shape) × (s.Idx → EReal)))
    concatenates_S1024_S1024_S1024_S3072_d0 (ix1 (colOf 0 (by decide) e)) 0 (by simp) S1024 _ rfl rfl 0 (by rfl)
    (ix1 e) (fun b hb => ?_) (by rfl)
  fin_cases b
  exact absurd rfl hb

theorem bias1_at (e : Fin 1024) :
    (ent m c main_v5 : S3072.Idx → EReal) (ix1 (colOf 1024 (by decide) e)) = (m ((c.tc : Thread nD τ).loc main_arg5)) (ix1 e) := by
  rw [bias_eq]
  refine concatenate_apply_piece (α := EReal) (t := S3072) (0 : Fin 1)
    ([⟨S1024, (m ((c.tc : Thread nD τ).loc main_arg3))⟩, ⟨S1024, (m ((c.tc : Thread nD τ).loc main_arg5))⟩, ⟨S1024, (m ((c.tc : Thread nD τ).loc main_arg7))⟩] : List ((s : Shape) × (s.Idx → EReal)))
    concatenates_S1024_S1024_S1024_S3072_d0 (ix1 (colOf 1024 (by decide) e)) 1 (by simp) S1024 _ rfl rfl 1024 (by rfl)
    (ix1 e) (fun b hb => ?_) (by rfl)
  fin_cases b
  exact absurd rfl hb

theorem bias2_at (e : Fin 1024) :
    (ent m c main_v5 : S3072.Idx → EReal) (ix1 (colOf 2048 (by decide) e)) = (m ((c.tc : Thread nD τ).loc main_arg7)) (ix1 e) := by
  rw [bias_eq]
  refine concatenate_apply_piece (α := EReal) (t := S3072) (0 : Fin 1)
    ([⟨S1024, (m ((c.tc : Thread nD τ).loc main_arg3))⟩, ⟨S1024, (m ((c.tc : Thread nD τ).loc main_arg5))⟩, ⟨S1024, (m ((c.tc : Thread nD τ).loc main_arg7))⟩] : List ((s : Shape) × (s.Idx → EReal)))
    concatenates_S1024_S1024_S1024_S3072_d0 (ix1 (colOf 2048 (by decide) e)) 2 (by simp) S1024 _ rfl rfl 2048 (by rfl)
    (ix1 e) (fun b hb => ?_) (by rfl)
  fin_cases b
  exact absurd rfl hb

end Cert.KernelIdeal.Entry

end
-- ==== Proof.LayerArrays.lean ====
/-
  The layer over whole arrays: the arguments read by coordinates, and the two results as functions of the ten
  argument arrays.

  The activations are an `[8192, 10, 1024]` array, one batch element per leading coordinate (`slab`); the positional
  table is `[1, 10, 1024]` (`table`); a weight matrix `[1024, 1024]` is read output feature first (`mat`); a bias, the
  scale and the shift are vectors of 1024 (`vec`). The results at `(b, t, ·)` are the specification's probabilities
  and normalised rows of batch element `b`.
-/
import proofs.«106989_j55602646614549_2_alg».proof.Proof.LayerSpec
import Idealize.ShloMosaic.Lib.ValueIdx

noncomputable section

namespace Cert.Layer

open Idealize.ShloMosaic Idealize.ShloMosaic.ValueIdx

/-- Batch element `b` of the activations. -/
def slab (x : (⟨3, ![8192, 10, 1024]⟩ : Shape).Idx → EReal) (b : Fin 8192) : Fin 10 → Fin 1024 → EReal :=
  fun t d => x (ix3 b t d)
/-- The positional table's ten rows. -/
def table (pe : (⟨3, ![1, 10, 1024]⟩ : Shape).Idx → EReal) : Fin 10 → Fin 1024 → EReal :=
  fun t d => pe (ix3 (0 : Fin 1) t d)
/-- A weight matrix, output feature first. -/
def mat (W : (⟨2, ![1024, 1024]⟩ : Shape).Idx → EReal) : Fin 1024 → Fin 1024 → EReal := fun e d => W (ix2 e d)
/-- A vector of 1024 features. -/
def vec (v : (⟨1, ![1024]⟩ : Shape).Idx → EReal) : Fin 1024 → EReal := fun e => v (ix1 e)

/-- The attention probabilities of every batch element. -/
def probsAll (x0 : (⟨3, ![8192, 10, 1024]⟩ : Shape).Idx → EReal) (x1 : (⟨3, ![1, 10, 1024]⟩ : Shape).Idx → EReal)
    (x2 : (⟨2, ![1024, 1024]⟩ : Shape).Idx → EReal) (x3 : (⟨1, ![1024]⟩ : Shape).Idx → EReal)
    (x4 : (⟨2, ![1024, 1024]⟩ : Shape).Idx → EReal) (x5 : (⟨1, ![1024]⟩ : Shape).Idx → EReal) :
    (⟨3, ![8192, 10, 10]⟩ : Shape).Idx → EReal :=
  fun i => prob (slab x0 (i 0)) (table x1) (mat x2) (mat x4) (vec x3) (vec x5) (i 1) (i 2)

/-- The normalised rows of every batch element. -/
def normedAll (x0 : (⟨3, ![8192, 10, 1024]⟩ : Shape).Idx → EReal) (x1 : (⟨3, ![1, 10, 1024]⟩ : Shape).Idx → EReal)
    (x2 : (⟨2, ![1024, 1024]⟩ : Shape).Idx → EReal) (x3 : (⟨1, ![1024]⟩ : Shape).Idx → EReal)
    (x4 : (⟨2, ![1024, 1024]⟩ : Shape).Idx → EReal) (x5 : (⟨1, ![1024]⟩ : Shape).Idx → EReal)
    (x6 : (⟨2, ![1024, 1024]⟩ : Shape).Idx → EReal) (x7 x8 x9 : (⟨1, ![1024]⟩ : Shape).Idx → EReal) :
    (⟨3, ![8192, 10, 1024]⟩ : Shape).Idx → EReal :=
  fun i => normed (slab x0 (i 0)) (table x1) (mat x2) (mat x4) (mat x6) (vec x3) (vec x5) (vec x7) (vec x8) (vec x9) (i 1) (i 2)

end Cert.Layer

end
-- ==== Proof.KernelValue.lean ====
/-
  The kernel's two results as functions of the argument arrays.

  Grid point `t` reads rows `640 t … 640 t + 639` of the activations laid out as rows — batch elements
  `64 t … 64 t + 63` — and the whole of every other operand; it writes back batch elements `64 t …` of the
  probabilities and rows `640 t …` of the normalised rows. By the body's reading at an index, what point `t` writes
  back is block `t` of ONE function of the argument arrays: the specification's probabilities of every batch element,
  and its normalised rows laid out as `81920` rows. The 128 blocks tile each result array (the block holding batch
  element `b` is point `b / 64`; the block holding row `R` is point `R / 640`), so after the region the two arrays
  hold those functions, and the reshape after the region returns the rows to `[8192, 10, 1024]`.
-/
import proofs.«106989_j55602646614549_2_alg».proof.Proof.KernelEntry
import proofs.«106989_j55602646614549_2_alg».proof.Proof.LayerArrays
import Idealize.ShloMosaic.Lib.Pipeline.Value

set_option maxRecDepth 16384

noncomputable section

namespace Cert.KernelIdeal.Valued

open Cert.KernelIdeal Cert.KernelIdeal.Gen Cert.KernelIdeal.Around Cert.KernelIdeal.Body Cert.KernelIdeal.Entry Cert.Layer Cert.BatchRows
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- The index maps over the grid: the activations' window and the two results' windows move with the point along
    their leading axis; every other window stays at block zero. -/
theorem moves : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-! ## The input blocks by coordinates -/

theorem rows_block (t : Fin cfg0.N) (p : Fin 64) (B : Fin 8192) (hB : B.val = t.val * 64 + p.val) :
    rowsOf (iblk m c 0 t) p = slab (m ((c.tc : Thread nD τ).loc main_arg0)) B := by
  funext s d
  have hBl := B.isLt; have hsl := s.isLt; have hpl := p.isLt
  show (ent m c main_v6 : S81920x1024.Idx → EReal) (((cfg0.win 0).blk t).view.emb (ix2 (rowOf p s) d)) = (m ((c.tc : Thread nD τ).loc main_arg0)) (ix3 B s d)
  have h : ((cfg0.win 0).blk t).view.emb (ix2 (rowOf p s) d) = ix2 (⟨B.val * 10 + s.val, by omega⟩ : Fin 81920) d := by
    obtain ⟨e0, e1, -⟩ := moves t
    funext a; apply Fin.ext
    match a with
    | ⟨0, _⟩ => show win0_0.index t (0 : Fin 2) * 640 + 1 * (p.val * 10 + s.val) = B.val * 10 + s.val; omega
    | ⟨1, _⟩ => show win0_0.index t (1 : Fin 2) * 1024 + 1 * d.val = d.val; omega
  rw [h]
  exact rows_at m c B s d _ rfl

theorem table_block (t : Fin cfg0.N) : tableOf (iblk m c 1 t) = table (m ((c.tc : Thread nD τ).loc main_arg1)) := by
  funext s d
  show (ent m c main_arg1 : S1x10x1024.Idx → EReal) (((cfg0.win 1).blk t).view.emb (ix3 (0 : Fin 1) s d)) = (m ((c.tc : Thread nD τ).loc main_arg1)) (ix3 (0 : Fin 1) s d)
  have h : ((cfg0.win 1).blk t).view.emb (ix3 (0 : Fin 1) s d) = ix3 (0 : Fin 1) s d := by
    obtain ⟨-, -, e0, e1, e2, -⟩ := moves t
    funext a; apply Fin.ext
    match a with
    | ⟨0, _⟩ => show win0_1.index t (0 : Fin 3) * 1 + 1 * 0 = 0; omega
    | ⟨1, _⟩ => show win0_1.index t (1 : Fin 3) * 10 + 1 * s.val = s.val; omega
    | ⟨2, _⟩ => show win0_1.index t (2 : Fin 3) * 1024 + 1 * d.val = d.val; omega
  rw [h, ent_arg1]

theorem weights0_block (t : Fin cfg0.N) : weightsOf (iblk m c 2 t) 0 (by decide) = mat (m ((c.tc : Thread nD τ).loc main_arg2)) := by
  funext e d
  show (ent m c main_v4 : S1024x3072.Idx → EReal) (((cfg0.win 2).blk t).view.emb (ix2 d (colOf 0 (by decide) e))) = (m ((c.tc : Thread nD τ).loc main_arg2)) (ix2 e d)
  have h : ((cfg0.win 2).blk t).view.emb (ix2 d (colOf 0 (by decide) e)) = ix2 d (colOf 0 (by decide) e) := by
    obtain ⟨-, -, -, -, -, e0, e1, -⟩ := moves t
    funext a; apply Fin.ext
    match a with
    | ⟨0, _⟩ => show win0_2.index t (0 : Fin 2) * 1024 + 1 * d.val = d.val; omega
    | ⟨1, _⟩ => show win0_2.index t (1 : Fin 2) * 3072 + 1 * (0 + e.val) = 0 + e.val; omega
  rw [h]
  exact weights0_at m c d e

theorem weights1_block (t : Fin cfg0.N) : weightsOf (iblk m c 2 t) 1024 (by decide) = mat (m ((c.tc : Thread nD τ).loc main_arg4)) := by
  funext e d
  show (ent m c main_v4 : S1024x3072.Idx → EReal) (((cfg0.win 2).blk t).view.emb (ix2 d (colOf 1024 (by decide) e))) = (m ((c.tc : Thread nD τ).loc main_arg4)) (ix2 e d)
  have h : ((cfg0.win 2).blk t).view.emb (ix2 d (colOf 1024 (by decide) e)) = ix2 d (colOf 1024 (by decide) e) := by
    obtain ⟨-, -, -, -, -, e0, e1, -⟩ := moves t
    funext a; apply Fin.ext
    match a with
    | ⟨0, _⟩ => show win0_2.index t (0 : Fin 2) * 1024 + 1 * d.val = d.val; omega
    | ⟨1, _⟩ => show win0_2.index t (1 : Fin 2) * 3072 + 1 * (1024 + e.val) = 1024 + e.val; omega
  rw [h]
  exact weights1_at m c d e

theorem weights2_block (t : Fin cfg0.N) : weightsOf (iblk m c 2 t) 2048 (by decide) = mat (m ((c.tc : Thread nD τ).loc main_arg6)) := by
  funext e d
  show (ent m c main_v4 : S1024x3072.Idx → EReal) (((cfg0.win 2).blk t).view.emb (ix2 d (colOf 2048 (by decide) e))) = (m ((c.tc : Thread nD τ).loc main_arg6)) (ix2 e d)
  have h : ((cfg0.win 2).blk t).view.emb (ix2 d (colOf 2048 (by decide) e)) = ix2 d (colOf 2048 (by decide) e) := by
    obtain ⟨-, -, -, -, -, e0, e1, -⟩ := moves t
    funext a; apply Fin.ext
    match a with
    | ⟨0, _⟩ => show win0_2.index t (0 : Fin 2) * 1024 + 1 * d.val = d.val; omega
    | ⟨1, _⟩ => show win0_2.index t (1 : Fin 2) * 3072 + 1 * (2048 + e.val) = 2048 + e.val; omega
  rw [h]
  exact weights2_at m c d e

theorem bias0_block (t : Fin cfg0.N) : biasOf (iblk m c 3 t) 0 (by decide) = vec (m ((c.tc : Thread nD τ).loc main_arg3)) := by
  funext e
  show (ent m c main_v5 : S3072.Idx → EReal) (((cfg0.win 3).blk t).view.emb (ix1 (colOf 0 (by decide) e))) = (m ((c.tc : Thread nD τ).loc main_arg3)) (ix1 e)
  have h : ((cfg0.win 3).blk t).view.emb (ix1 (colOf 0 (by decide) e)) = ix1 (colOf 0 (by decide) e) := by
    obtain ⟨-, -, -, -, -, -, -, e0, -⟩ := moves t
    funext a; apply Fin.ext
    match a with
    | ⟨0, _⟩ => show win0_3.index t (0 : Fin 1) * 3072 + 1 * (0 + e.val) = 0 + e.val; omega
  rw [h]
  exact bias0_at m c e

theorem bias1_block (t : Fin cfg0.N) : biasOf (iblk m c 3 t) 1024 (by decide) = vec (m ((c.tc : Thread nD τ).loc main_arg5)) := by
  funext e
  show (ent m c main_v5 : S3072.Idx → EReal) (((cfg0.win 3).blk t).view.emb (ix1 (colOf 1024 (by decide) e))) = (m ((c.tc : Thread nD τ).loc main_arg5)) (ix1 e)
  have h : ((cfg0.win 3).blk t).view.emb (ix1 (colOf 1024 (by decide) e)) = ix1 (colOf 1024 (by decide) e) := by
    obtain ⟨-, -, -, -, -, -, -, e0, -⟩ := moves t
    funext a; apply Fin.ext
    match a with
    | ⟨0, _⟩ => show win0_3.index t (0 : Fin 1) * 3072 + 1 * (1024 + e.val) = 1024 + e.val; omega
  rw [h]
  exact bias1_at m c e

theorem bias2_block (t : Fin cfg0.N) : biasOf (iblk m c 3 t) 2048 (by decide) = vec (m ((c.tc : Thread nD τ).loc main_arg7)) := by
  funext e
  show (ent m c main_v5 : S3072.Idx → EReal) (((cfg0.win 3).blk t).view.emb (ix1 (colOf 2048 (by decide) e))) = (m ((c.tc : Thread nD τ).loc main_arg7)) (ix1 e)
  have h : ((cfg0.win 3).blk t).view.emb (ix1 (colOf 2048 (by decide) e)) = ix1 (colOf 2048 (by decide) e) := by
    obtain ⟨-, -, -, -, -, -, -, e0, -⟩ := moves t
    funext a; apply Fin.ext
    match a with
    | ⟨0, _⟩ => show win0_3.index t (0 : Fin 1) * 3072 + 1 * (2048 + e.val) = 2048 + e.val; omega
  rw [h]
  exact bias2_at m c e

theorem feat4_block (t : Fin cfg0.N) : featOf (iblk m c 4 t) = vec (m ((c.tc : Thread nD τ).loc main_arg8)) := by
  funext e
  show (ent m c main_arg8 : S1024.Idx → EReal) (((cfg0.win 4).blk t).view.emb (ix1 e)) = (m ((c.tc : Thread nD τ).loc main_arg8)) (ix1 e)
  have h : ((cfg0.win 4).blk t).view.emb (ix1 e) = ix1 e := by
    obtain ⟨-, -, -, -, -, -, -, -, e0, -⟩ := moves t
    funext a; apply Fin.ext
    match a with
    | ⟨0, _⟩ => show win0_4.index t (0 : Fin 1) * 1024 + 1 * e.val = e.val; omega
  rw [h, ent_arg8]

theorem feat5_block (t : Fin cfg0.N) : featOf (iblk m c 5 t) = vec (m ((c.tc : Thread nD τ).loc main_arg9)) := by
  funext e
  show (ent m c main_arg9 : S1024.Idx → EReal) (((cfg0.win 5).blk t).view.emb (ix1 e)) = (m ((c.tc : Thread nD τ).loc main_arg9)) (ix1 e)
  have h : ((cfg0.win 5).blk t).view.emb (ix1 e) = ix1 e := by
    obtain ⟨-, -, -, -, -, -, -, -, -, e0, -⟩ := moves t
    funext a; apply Fin.ext
    match a with
    | ⟨0, _⟩ => show win0_5.index t (0 : Fin 1) * 1024 + 1 * e.val = e.val; omega
  rw [h, ent_arg9]

/-! ## What a point writes back -/

/-- The probabilities: point `t` writes back block `t` of the specification's probabilities. -/
theorem probs_flushed (t : Fin cfg0.N) :
    (dats m 0 c).flushed 7 t = ((cfg0.win 7).blk t).view.read (Elt Ideal) (probsAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show (cfg0.win 7).cut (grid0.coords t) ((dats m 0 c).after 7 t) = _
  rw [left7]
  unfold probsOf
  rw [View.canon_unit_zero zero3]
  simp only [View.ld_unit_zero (S := S640x1024) zero2, View.ld_unit_zero (S := S1x10x1024) zero3,
    View.ld_unit_zero (S := S1024x3072) zero2, View.ld_unit_zero (S := S3072) zero1]
  funext j
  obtain ⟨p, s, q, rfl⟩ : ∃ (p : Fin 64) (s q : Fin 10), j = ix3 p s q := ⟨j 0, j 1, j 2, eq_ix3 j⟩
  have hpl := p.isLt; have htl := t.isLt; have hN : cfg0.N = 128 := N_0
  show k0_pay5 (iblk m c 0 t) (iblk m c 1 t) (iblk m c 2 t) (iblk m c 3 t) (ix3 p s q)
    = probsAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 7).blk t).view.emb (ix3 p s q))
  have h : ((cfg0.win 7).blk t).view.emb (ix3 p s q) = ix3 (⟨t.val * 64 + p.val, by omega⟩ : Fin 8192) s q := by
    obtain ⟨-, -, -, -, -, -, -, -, -, -, -, -, e0, e1, e2⟩ := moves t
    funext a; apply Fin.ext
    match a with
    | ⟨0, _⟩ => show win0_7.index t (0 : Fin 3) * 64 + 1 * p.val = t.val * 64 + p.val; omega
    | ⟨1, _⟩ => show win0_7.index t (1 : Fin 3) * 10 + 1 * s.val = s.val; omega
    | ⟨2, _⟩ => show win0_7.index t (2 : Fin 3) * 10 + 1 * q.val = q.val; omega
  rw [h, probs_block, rows_block m c t p ⟨t.val * 64 + p.val, by omega⟩ rfl, table_block, weights0_block, weights1_block,
    bias0_block, bias1_block]
  rfl

/-- The normalised rows laid out as 81920 rows. -/
def normedRows : S81920x1024.Idx → EReal :=
  shapeCast S81920x1024 (normedAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) shapeCasts_S8192x10x1024_S81920x1024

/-- The normalised rows: point `t` writes back block `t` of them. -/
theorem normed_flushed (t : Fin cfg0.N) :
    (dats m 0 c).flushed 6 t = ((cfg0.win 6).blk t).view.read (Elt Ideal) (normedRows m c) := by
  show (cfg0.win 6).cut (grid0.coords t) ((dats m 0 c).after 6 t) = _
  rw [left6]
  unfold normedOf
  rw [View.canon_unit_zero zero2]
  simp only [View.ld_unit_zero (S := S640x1024) zero2, View.ld_unit_zero (S := S1x10x1024) zero3,
    View.ld_unit_zero (S := S1024x3072) zero2, View.ld_unit_zero (S := S3072) zero1, View.ld_unit_zero (S := S1024) zero1]
  funext j
  obtain ⟨r, e, rfl⟩ : ∃ (r : Fin 640) (e : Fin 1024), j = ix2 r e := ⟨j 0, j 1, eq_ix2 j⟩
  have hrl := r.isLt
  obtain ⟨p, s, rfl⟩ : ∃ (p : Fin 64) (s : Fin 10), r = rowOf p s :=
    ⟨⟨r.val / 10, by omega⟩, ⟨r.val % 10, by omega⟩, Fin.ext (by show r.val = r.val / 10 * 10 + r.val % 10; omega)⟩
  have hpl := p.isLt; have hsl := s.isLt; have htl := t.isLt; have hN : cfg0.N = 128 := N_0
  show k0_pay1 (k0_pay2 (iblk m c 0 t) (iblk m c 1 t)) (k0_pay4 (iblk m c 0 t) (iblk m c 1 t) (iblk m c 2 t) (iblk m c 3 t))
      (k0_pay5 (iblk m c 0 t) (iblk m c 1 t) (iblk m c 2 t) (iblk m c 3 t)) (iblk m c 4 t) (iblk m c 5 t) (ix2 (rowOf p s) e)
    = normedRows m c (((cfg0.win 6).blk t).view.emb (ix2 (rowOf p s) e))
  have h : ((cfg0.win 6).blk t).view.emb (ix2 (rowOf p s) e)
      = ix2 (⟨(t.val * 64 + p.val) * 10 + s.val, by omega⟩ : Fin 81920) e := by
    obtain ⟨-, -, -, -, -, -, -, -, -, -, e0, e1, -⟩ := moves t
    funext a; apply Fin.ext
    match a with
    | ⟨0, _⟩ => show win0_6.index t (0 : Fin 2) * 640 + 1 * (p.val * 10 + s.val) = (t.val * 64 + p.val) * 10 + s.val; omega
    | ⟨1, _⟩ => show win0_6.index t (1 : Fin 2) * 1024 + 1 * e.val = e.val; omega
  rw [h, normed_block, rows_block m c t p ⟨t.val * 64 + p.val, by omega⟩ rfl, table_block, weights0_block, weights1_block,
    weights2_block, bias0_block, bias1_block, bias2_block, feat4_block, feat5_block]
  unfold normedRows
  rw [batchesToRows_apply _ _ (⟨t.val * 64 + p.val, by omega⟩ : Fin 8192) s e _ rfl]
  rfl

/-! ## The blocks tile the result arrays -/

theorem probs_mem (t : Fin cfg0.N) (i : S8192x10x10.Idx) :
    i ∈ ((cfg0.win 7).blk t).view.set ↔ ∀ a : Fin 3, win0_7.index t a * S64x10x10.size a ≤ (i a).val
      ∧ (i a).val < win0_7.index t a * S64x10x10.size a + S64x10x10.size a := by
  show i ∈ ((View.whole main_v7_1).slice (win0_7.rect t)).set ↔ _
  rw [View.set_slice_whole, Rect.mem_set_unit]
  exact Iff.rfl

theorem probs_cover (i : S8192x10x10.Idx) :
    ∃ t : Fin cfg0.N, (cfg0.win 7).flush t = true ∧ i ∈ ((cfg0.win 7).blk t).view.set := by
  have hi0 : (i 0).val < 8192 := (i 0).isLt
  have hi1 : (i 1).val < 10 := (i 1).isLt
  have hi2 : (i 2).val < 10 := (i 2).isLt
  have hN : cfg0.N = 128 := N_0
  refine ⟨⟨(i 0).val / 64, by omega⟩, flush0_7 _, ?_⟩
  rw [probs_mem]
  obtain ⟨-, -, -, -, -, -, -, -, -, -, -, -, e0, e1, e2⟩ := moves ⟨(i 0).val / 64, by omega⟩
  intro a
  match a with
  | ⟨0, _⟩ =>
    show win0_7.index _ (0 : Fin 3) * 64 ≤ (i 0).val ∧ (i 0).val < win0_7.index _ (0 : Fin 3) * 64 + 64
    rw [e0]; show (i 0).val / 64 * 64 ≤ (i 0).val ∧ (i 0).val < (i 0).val / 64 * 64 + 64; omega
  | ⟨1, _⟩ =>
    show win0_7.index _ (1 : Fin 3) * 10 ≤ (i 1).val ∧ (i 1).val < win0_7.index _ (1 : Fin 3) * 10 + 10
    rw [e1]; omega
  | ⟨2, _⟩ =>
    show win0_7.index _ (2 : Fin 3) * 10 ≤ (i 2).val ∧ (i 2).val < win0_7.index _ (2 : Fin 3) * 10 + 10
    rw [e2]; omega

theorem normed_mem (t : Fin cfg0.N) (i : S81920x1024.Idx) :
    i ∈ ((cfg0.win 6).blk t).view.set ↔ ∀ a : Fin 2, win0_6.index t a * S640x1024.size a ≤ (i a).val
      ∧ (i a).val < win0_6.index t a * S640x1024.size a + S640x1024.size a := by
  show i ∈ ((View.whole main_v7_0).slice (win0_6.rect t)).set ↔ _
  rw [View.set_slice_whole, Rect.mem_set_unit]
  exact Iff.rfl

theorem normed_cover (i : S81920x1024.Idx) :
    ∃ t : Fin cfg0.N, (cfg0.win 6).flush t = true ∧ i ∈ ((cfg0.win 6).blk t).view.set := by
  have hi0 : (i 0).val < 81920 := (i 0).isLt
  have hi1 : (i 1).val < 1024 := (i 1).isLt
  have hN : cfg0.N = 128 := N_0
  refine ⟨⟨(i 0).val / 640, by omega⟩, flush0_6 _, ?_⟩
  rw [normed_mem]
  obtain ⟨-, -, -, -, -, -, -, -, -, -, e0, e1, -⟩ := moves ⟨(i 0).val / 640, by omega⟩
  intro a
  match a with
  | ⟨0, _⟩ =>
    show win0_6.index _ (0 : Fin 2) * 640 ≤ (i 0).val ∧ (i 0).val < win0_6.index _ (0 : Fin 2) * 640 + 640
    rw [e0]; show (i 0).val / 640 * 640 ≤ (i 0).val ∧ (i 0).val < (i 0).val / 640 * 640 + 640; omega
  | ⟨1, _⟩ =>
    show win0_6.index _ (1 : Fin 2) * 1024 ≤ (i 1).val ∧ (i 1).val < win0_6.index _ (1 : Fin 2) * 1024 + 1024
    rw [e1]; omega

/-! ## The result arrays after the region, and the run -/

theorem probs_final : (dats m 0 c).arrAt 7 cfg0.N = probsAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m 0 c).arrAt_eq_of_cover 7 _ (fun t _ => probs_flushed m c t) (probs_cover)

theorem normed_final : (dats m 0 c).arrAt 6 cfg0.N = normedRows m c :=
  (dats m 0 c).arrAt_eq_of_cover 6 _ (fun t _ => normed_flushed m c t) (normed_cover)

/-- The reshape after the region returns the rows to batches: the first result is the normalised rows of every
    batch element. -/
theorem first_result :
    Pipeline.afterTail₀ cfgs (dats m) 0 (ent0 m) [hostOps1] c main_v8 = normedAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Pipeline.afterTail₀
  show StableHlo.after hostOps1 _ (Proc.devRef .tc main_v8) = _
  after_results3
  have hw : Pipeline.withArrays (cfgs 0).spec c (ent0 m c) (fun w => (dats m 0 c).arrAt w (cfgs 0).N)
      (Proc.devRef .tc main_v7_0) = normedRows m c :=
    (Pipeline.withArrays_arr spec0 launch0.win.arr_inj c _ _ 6).trans (normed_final m c)
  rw [hw]
  unfold normedRows
  exact shapeCast_shapeCast _ _ _

/-- The kernel's run, read: every weakly fair execution terminates with the first result at the normalised rows and
    the second at the probabilities of every batch element, the ten arguments unchanged. -/
theorem run : θ_run defs (onTc (τ := τ) (main (F := Ideal))) ⟨m, fun _ => 0, ρ⟩ fun r => ∀ c : Dev nD,
      r.2.mem ((c.tc : Thread nD τ).loc main_v8) = normedAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v7_1) = probsAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v8 (Pipeline.mem_restRefs_of main_v8 (by decide) (by decide))).trans (first_result m c),
     ((h c).1 7).trans (probs_final m c),
     ((h c).2 main_arg0 (Pipeline.mem_restRefs_of main_arg0 (by decide) (by decide))).trans (end_arg0 m (dats m) c),
     ((h c).1 1).trans ((((dats m) 0 c).arrAt_in 1 rfl _).trans ((A_eq m c 1).trans (ent_arg1 m c))),
     ((h c).2 main_arg2 (Pipeline.mem_restRefs_of main_arg2 (by decide) (by decide))).trans (end_arg2 m (dats m) c),
     ((h c).2 main_arg3 (Pipeline.mem_restRefs_of main_arg3 (by decide) (by decide))).trans (end_arg3 m (dats m) c),
     ((h c).2 main_arg4 (Pipeline.mem_restRefs_of main_arg4 (by decide) (by decide))).trans (end_arg4 m (dats m) c),
     ((h c).2 main_arg5 (Pipeline.mem_restRefs_of main_arg5 (by decide) (by decide))).trans (end_arg5 m (dats m) c),
     ((h c).2 main_arg6 (Pipeline.mem_restRefs_of main_arg6 (by decide) (by decide))).trans (end_arg6 m (dats m) c),
     ((h c).2 main_arg7 (Pipeline.mem_restRefs_of main_arg7 (by decide) (by decide))).trans (end_arg7 m (dats m) c),
     ((h c).1 4).trans ((((dats m) 0 c).arrAt_in 4 rfl _).trans ((A_eq m c 4).trans (ent_arg8 m c))),
     ((h c).1 5).trans ((((dats m) 0 c).arrAt_in 5 rfl _).trans ((A_eq m c 5).trans (ent_arg9 m c)))⟩)
    (run_main m ρ)

end Cert.KernelIdeal.Valued

end
-- ==== Proof.RefLayer.lean ====
/-
  The reference program's two results are the layer's specification over whole arrays.

  Each stage of the reference is read at an index `(b, t, e)` from its operands at an index: a broadcast reads its
  operand at the coordinates it keeps, a product of matrices is a sum over the contracted coordinate, a sum along
  the last axis is the initial zero plus the sum over that coordinate, the maximum along the last axis is a fold of
  `max` from −∞ over it. Stage by stage these are the specification's `posed`, `proj`, `score`, `rowMax`,
  `expo`, `prob`, `mixed`, `resid`, `mean`, `centred`, `variance`, `normed` of batch element `b`.
-/
import proofs.«106989_j55602646614549_2_alg».proof.Proof.Gen.ReferenceIdeal.Read
import proofs.«106989_j55602646614549_2_alg».proof.Proof.LayerArrays
import Idealize.ShloMosaic.PureOps.Reduce

set_option maxRecDepth 16384

noncomputable section

namespace Cert.ReferenceIdeal.Layered

open Cert.ReferenceIdeal Cert.ReferenceIdeal.Gen Cert.ReferenceIdeal.Read Cert.Layer
open Idealize.ShloMosaic Idealize.ShloMosaic.ValueIdx

/-! ## The index maps at coordinates -/

theorem ri_v0 (b : Fin 8192) (t : Fin 10) (e : Fin 1024) : idx_main_v0 (ix3 b t e) = ix3 (0 : Fin 1) t e := by funext a; fin_cases a <;> rfl
theorem ri_l2 (b : Fin 8192) (t : Fin 10) (e : Fin 1024) (k : Fin 1024) : lidx_main_v2 (ix3 b t e) k = ix3 b t k := by funext a; fin_cases a <;> rfl
theorem ri_r2 (b : Fin 8192) (t : Fin 10) (e : Fin 1024) (k : Fin 1024) : ridx_main_v2 (ix3 b t e) k = ix2 e k := by funext a; fin_cases a <;> rfl
theorem ri_l7 (b : Fin 8192) (t : Fin 10) (e : Fin 1024) (k : Fin 1024) : lidx_main_v7 (ix3 b t e) k = ix3 b t k := by funext a; fin_cases a <;> rfl
theorem ri_r7 (b : Fin 8192) (t : Fin 10) (e : Fin 1024) (k : Fin 1024) : ridx_main_v7 (ix3 b t e) k = ix2 e k := by funext a; fin_cases a <;> rfl
theorem ri_l12 (b : Fin 8192) (t : Fin 10) (e : Fin 1024) (k : Fin 1024) : lidx_main_v12 (ix3 b t e) k = ix3 b t k := by funext a; fin_cases a <;> rfl
theorem ri_r12 (b : Fin 8192) (t : Fin 10) (e : Fin 1024) (k : Fin 1024) : ridx_main_v12 (ix3 b t e) k = ix2 e k := by funext a; fin_cases a <;> rfl
theorem ri_v3 (u v : Fin 1) (e : Fin 1024) : idx_main_v3 (ix3 u v e) = ix1 e := by funext a; fin_cases a <;> rfl
theorem ri_v8 (u v : Fin 1) (e : Fin 1024) : idx_main_v8 (ix3 u v e) = ix1 e := by funext a; fin_cases a <;> rfl
theorem ri_v13 (u v : Fin 1) (e : Fin 1024) : idx_main_v13 (ix3 u v e) = ix1 e := by funext a; fin_cases a <;> rfl
theorem ri_v51 (u v : Fin 1) (e : Fin 1024) : idx_main_v51 (ix3 u v e) = ix1 e := by funext a; fin_cases a <;> rfl
theorem ri_v54 (u v : Fin 1) (e : Fin 1024) : idx_main_v54 (ix3 u v e) = ix1 e := by funext a; fin_cases a <;> rfl
theorem ri_v4 (b : Fin 8192) (t : Fin 10) (e : Fin 1024) : idx_main_v4 (ix3 b t e) = ix3 (0 : Fin 1) (0 : Fin 1) e := by funext a; fin_cases a <;> rfl
theorem ri_v9 (b : Fin 8192) (t : Fin 10) (e : Fin 1024) : idx_main_v9 (ix3 b t e) = ix3 (0 : Fin 1) (0 : Fin 1) e := by funext a; fin_cases a <;> rfl
theorem ri_v14 (b : Fin 8192) (t : Fin 10) (e : Fin 1024) : idx_main_v14 (ix3 b t e) = ix3 (0 : Fin 1) (0 : Fin 1) e := by funext a; fin_cases a <;> rfl
theorem ri_v52 (b : Fin 8192) (t : Fin 10) (e : Fin 1024) : idx_main_v52 (ix3 b t e) = ix3 (0 : Fin 1) (0 : Fin 1) e := by funext a; fin_cases a <;> rfl
theorem ri_v55 (b : Fin 8192) (t : Fin 10) (e : Fin 1024) : idx_main_v55 (ix3 b t e) = ix3 (0 : Fin 1) (0 : Fin 1) e := by funext a; fin_cases a <;> rfl
theorem ri_l19 (b : Fin 8192) (t s : Fin 10) (k : Fin 1024) : lidx_main_v19 (ix3 b t s) k = ix3 b t k := by funext a; fin_cases a <;> rfl
theorem ri_r19 (b : Fin 8192) (t s : Fin 10) (k : Fin 1024) : ridx_main_v19 (ix3 b t s) k = ix3 b s k := by funext a; fin_cases a <;> rfl
theorem ri_v23 (b : Fin 8192) (t : Fin 10) (u : Fin 1) : idx_main_v23 (ix3 b t u) = ix2 b t := by funext a; fin_cases a <;> rfl
theorem ri_v28 (b : Fin 8192) (t : Fin 10) (u : Fin 1) : idx_main_v28 (ix3 b t u) = ix2 b t := by funext a; fin_cases a <;> rfl
theorem ri_v34 (b : Fin 8192) (t : Fin 10) (u : Fin 1) : idx_main_v34 (ix3 b t u) = ix2 b t := by funext a; fin_cases a <;> rfl
theorem ri_v41 (b : Fin 8192) (t : Fin 10) (u : Fin 1) : idx_main_v41 (ix3 b t u) = ix2 b t := by funext a; fin_cases a <;> rfl
theorem ri_v24 (b : Fin 8192) (t s : Fin 10) : idx_main_v24 (ix3 b t s) = ix3 b t (0 : Fin 1) := by funext a; fin_cases a <;> rfl
theorem ri_v29 (b : Fin 8192) (t s : Fin 10) : idx_main_v29 (ix3 b t s) = ix3 b t (0 : Fin 1) := by funext a; fin_cases a <;> rfl
theorem ri_v27 (b : Fin 8192) (t : Fin 10) (k : Fin 10) : idx_main_v27 (ix2 b t) k = ix3 b t k := by funext a; fin_cases a <;> rfl
theorem ri_l31 (b : Fin 8192) (t : Fin 10) (e : Fin 1024) (k : Fin 10) : lidx_main_v31 (ix3 b t e) k = ix3 b t k := by funext a; fin_cases a <;> rfl
theorem ri_r31 (b : Fin 8192) (t : Fin 10) (e : Fin 1024) (k : Fin 10) : ridx_main_v31 (ix3 b t e) k = ix3 b k e := by funext a; fin_cases a <;> rfl
theorem ri_v33 (b : Fin 8192) (t : Fin 10) (k : Fin 1024) : idx_main_v33 (ix2 b t) k = ix3 b t k := by funext a; fin_cases a <;> rfl
theorem ri_v40 (b : Fin 8192) (t : Fin 10) (k : Fin 1024) : idx_main_v40 (ix2 b t) k = ix3 b t k := by funext a; fin_cases a <;> rfl
theorem ri_v37 (b : Fin 8192) (t : Fin 10) (e : Fin 1024) : idx_main_v37 (ix3 b t e) = ix3 b t (0 : Fin 1) := by funext a; fin_cases a <;> rfl
theorem ri_v44 (b : Fin 8192) (t : Fin 10) (e : Fin 1024) : idx_main_v44 (ix3 b t e) = ix3 b t (0 : Fin 1) := by funext a; fin_cases a <;> rfl
theorem ri_v49 (b : Fin 8192) (t : Fin 10) (e : Fin 1024) : idx_main_v49 (ix3 b t e) = ix3 b t (0 : Fin 1) := by funext a; fin_cases a <;> rfl

/-- A reduced index `(b, t)` with the last coordinate put back. -/
theorem lift_scores (h : S8192x10x10.Reduces [2] S8192x10) (b : Fin 8192) (t : Fin 10) (k : Fin (S8192x10x10.size 2)) :
    h.lift (ix2 b t) k = ix3 b t (⟨k.val, k.isLt⟩ : Fin 10) := by
  funext c; apply Fin.ext; fin_cases c <;> rfl

/-! ## The stages -/

variable (x0 : (⟨S8192x10x1024, .f32⟩ : BufTy).Contents (Elt Ideal)) (x1 : (⟨S1x10x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 x8 x9 : (⟨S1024, .f32⟩ : BufTy).Contents (Elt Ideal))

theorem posed_at (b : Fin 8192) (t : Fin 10) (d : Fin 1024) :
    val_main_v1 (F := Ideal) x0 x1 (ix3 b t d) = posed (slab x0 b) (table x1) t d := by
  rw [val_main_v1_apply, val_main_v0_apply, ri_v0]; rfl

theorem queries_at (b : Fin 8192) (t : Fin 10) (e : Fin 1024) :
    val_main_v6 (F := Ideal) x0 x1 x2 x3 (ix3 b t e) = proj (slab x0 b) (table x1) (mat x2) (vec x3) t e := by
  rw [val_main_v6_apply, val_main_v5_apply, val_main_v2_apply, val_main_v4_apply, val_main_v3_apply, val_main_call0_v0_apply,
    val_main_call0_cst_apply]
  simp only [ri_l2, ri_r2, ri_v4, ri_v3, posed_at]
  rfl

theorem keys_at (b : Fin 8192) (t : Fin 10) (e : Fin 1024) :
    val_main_v11 (F := Ideal) x0 x1 x4 x5 (ix3 b t e) = proj (slab x0 b) (table x1) (mat x4) (vec x5) t e := by
  rw [val_main_v11_apply, val_main_v10_apply, val_main_v7_apply, val_main_v9_apply, val_main_v8_apply, val_main_call1_v0_apply,
    val_main_call1_cst_apply]
  simp only [ri_l7, ri_r7, ri_v9, ri_v8, posed_at]
  rfl

theorem values_at (b : Fin 8192) (t : Fin 10) (e : Fin 1024) :
    val_main_v16 (F := Ideal) x0 x1 x6 x7 (ix3 b t e) = proj (slab x0 b) (table x1) (mat x6) (vec x7) t e := by
  rw [val_main_v16_apply, val_main_v15_apply, val_main_v12_apply, val_main_v14_apply, val_main_v13_apply, val_main_call2_v0_apply,
    val_main_call2_cst_apply]
  simp only [ri_l12, ri_r12, ri_v14, ri_v13, posed_at]
  rfl

theorem scaled_at (b : Fin 8192) (t : Fin 10) (e : Fin 1024) :
    val_main_v18 (F := Ideal) x0 x1 x2 x3 (ix3 b t e)
      = proj (slab x0 b) (table x1) (mat x2) (vec x3) t e * Ideal.ofBits .f32 0x3D000000#32 := by
  rw [val_main_v18_apply, queries_at, val_main_v17_apply, val_main_cst_apply]; rfl

theorem score_at (b : Fin 8192) (t s : Fin 10) :
    val_main_v19 (F := Ideal) x0 x1 x2 x3 x4 x5 (ix3 b t s) = score (slab x0 b) (table x1) (mat x2) (mat x4) (vec x3) (vec x5) t s := by
  rw [val_main_v19_apply]
  simp only [ri_l19, ri_r19, scaled_at, keys_at]
  rfl

theorem rowMax_at (b : Fin 8192) (t : Fin 10) :
    val_main_v22 (F := Ideal) x0 x1 x2 x3 x4 x5 (ix2 b t) = rowMax (slab x0 b) (table x1) (mat x2) (mat x4) (vec x3) (vec x5) t := by
  rw [val_main_v22_apply, val_main_v21_apply, val_main_cst_1_apply]
  unfold val_main_v20
  rw [Host.reduce_eq_fold_single FloatOps.maximumf _ _ reducesTo_S8192x10x10_S8192x10_d2 (by decide) h_S_]
  have hf : (val_main_v19 (F := Ideal) x0 x1 x2 x3 x4 x5 ∘ (by decide : S8192x10x10.Reduces [2] S8192x10).lift (ix2 b t))
      = fun s : Fin 10 => score (slab x0 b) (table x1) (mat x2) (mat x4) (vec x3) (vec x5) t s := funext fun k => by
    rw [Function.comp_apply, lift_scores, score_at]
    rfl
  rw [hf]
  rfl

theorem expo_at (b : Fin 8192) (t s : Fin 10) :
    val_main_v26 (F := Ideal) x0 x1 x2 x3 x4 x5 (ix3 b t s) = expo (slab x0 b) (table x1) (mat x2) (mat x4) (vec x3) (vec x5) t s := by
  rw [val_main_v26_apply, val_main_v25_apply, score_at, val_main_v24_apply, ri_v24, val_main_v23_apply, ri_v23, rowMax_at]
  rfl

theorem prob_at (b : Fin 8192) (t s : Fin 10) :
    val_main_v30 (F := Ideal) x0 x1 x2 x3 x4 x5 (ix3 b t s) = prob (slab x0 b) (table x1) (mat x2) (mat x4) (vec x3) (vec x5) t s := by
  rw [val_main_v30_apply, expo_at, val_main_v29_apply, ri_v29, val_main_v28_apply, ri_v28, val_main_v27_apply, val_main_cst_2_apply]
  simp only [ri_v27, expo_at]
  show Ideal.div _ (Ideal.ofBits .f32 0x00000000#32 + _) = _
  rw [Ideal.ofBits_zero_f32, zero_add]
  rfl

theorem resid_at (b : Fin 8192) (t : Fin 10) (e : Fin 1024) :
    val_main_v32 (F := Ideal) x0 x1 x2 x3 x4 x5 x6 x7 (ix3 b t e) = resid (slab x0 b) (table x1) (mat x2) (mat x4) (mat x6) (vec x3) (vec x5) (vec x7) t e := by
  rw [val_main_v32_apply, posed_at, val_main_v31_apply]
  simp only [ri_l31, ri_r31, prob_at, values_at]
  rfl

theorem mean_at (b : Fin 8192) (t : Fin 10) (u : Fin 1) :
    val_main_v36 (F := Ideal) x0 x1 x2 x3 x4 x5 x6 x7 (ix3 b t u) = mean (slab x0 b) (table x1) (mat x2) (mat x4) (mat x6) (vec x3) (vec x5) (vec x7) t := by
  rw [val_main_v36_apply, val_main_v34_apply, ri_v34, val_main_v33_apply, val_main_cst_3_apply, val_main_v35_apply, val_main_cst_4_apply]
  simp only [ri_v33, resid_at]
  show Ideal.div (Ideal.ofBits .f32 0x00000000#32 + _) _ = _
  rw [Ideal.ofBits_zero_f32, zero_add]
  rfl

theorem centred_at (b : Fin 8192) (t : Fin 10) (e : Fin 1024) :
    val_main_v38 (F := Ideal) x0 x1 x2 x3 x4 x5 x6 x7 (ix3 b t e) = centred (slab x0 b) (table x1) (mat x2) (mat x4) (mat x6) (vec x3) (vec x5) (vec x7) t e := by
  rw [val_main_v38_apply, resid_at, val_main_v37_apply, ri_v37, mean_at]; rfl

theorem centred_at' (b : Fin 8192) (t : Fin 10) (e : Fin 1024) :
    val_main_v45 (F := Ideal) x0 x1 x2 x3 x4 x5 x6 x7 (ix3 b t e) = centred (slab x0 b) (table x1) (mat x2) (mat x4) (mat x6) (vec x3) (vec x5) (vec x7) t e := by
  rw [val_main_v45_apply, resid_at, val_main_v44_apply, ri_v44, mean_at]; rfl

theorem variance_at (b : Fin 8192) (t : Fin 10) (u : Fin 1) :
    val_main_v43 (F := Ideal) x0 x1 x2 x3 x4 x5 x6 x7 (ix3 b t u) = variance (slab x0 b) (table x1) (mat x2) (mat x4) (mat x6) (vec x3) (vec x5) (vec x7) t := by
  rw [val_main_v43_apply, val_main_v41_apply, ri_v41, val_main_v40_apply, val_main_cst_5_apply, val_main_v42_apply, val_main_cst_6_apply]
  simp only [ri_v40, val_main_v39_apply, centred_at]
  show Ideal.div (Ideal.ofBits .f32 0x00000000#32 + _) _ = _
  rw [Ideal.ofBits_zero_f32, zero_add]
  rfl

theorem normed_at (b : Fin 8192) (t : Fin 10) (e : Fin 1024) :
    val_main_v56 (F := Ideal) x0 x1 x2 x3 x4 x5 x6 x7 x8 x9 (ix3 b t e)
      = normed (slab x0 b) (table x1) (mat x2) (mat x4) (mat x6) (vec x3) (vec x5) (vec x7) (vec x8) (vec x9) t e := by
  rw [val_main_v56_apply, val_main_v53_apply, val_main_v50_apply, centred_at', val_main_v49_apply, ri_v49, val_main_v48_apply,
    val_main_v47_apply, variance_at, val_main_v46_apply, val_main_cst_7_apply, val_main_v52_apply, ri_v52, val_main_v51_apply, ri_v51,
    val_main_v55_apply, ri_v55, val_main_v54_apply, ri_v54]
  rfl

/-! ## The two results -/

/-- The reference's second result is the probabilities of every batch element. -/
theorem probs_eq : val_main_v30 (F := Ideal) x0 x1 x2 x3 x4 x5 = probsAll x0 x1 x2 x3 x4 x5 := by
  funext i
  obtain ⟨b, t, s, rfl⟩ : ∃ (b : Fin 8192) (t s : Fin 10), i = ix3 b t s := ⟨i 0, i 1, i 2, eq_ix3 i⟩
  rw [prob_at]
  rfl

/-- The reference's first result is the normalised rows of every batch element. -/
theorem normed_eq : val_main_v56 (F := Ideal) x0 x1 x2 x3 x4 x5 x6 x7 x8 x9 = normedAll x0 x1 x2 x3 x4 x5 x6 x7 x8 x9 := by
  funext i
  obtain ⟨b, t, e, rfl⟩ : ∃ (b : Fin 8192) (t : Fin 10) (e : Fin 1024), i = ix3 b t e := ⟨i 0, i 1, i 2, eq_ix3 i⟩
  rw [normed_at]
  rfl

end Cert.ReferenceIdeal.Layered

end
-- ==== Proof.lean ====
/-
  The fused attention layer against its reference, on the extended reals.

  Both programs compute, for each of 8192 batch elements of ten rows of 1024 features: the rows plus a positional
  table; three rectified linear projections (queries, keys, values); the ten by ten table of scaled query–key inner
  products; its row-wise softmax (the second result); the probabilities' average of the values added back to the rows;
  and each row normalised over its features, scaled and shifted (the first result). The kernel fuses the three
  projections into one product with the transposed weights joined along the columns, works on 128 blocks of 64 batch
  elements laid out as 640 rows, and rounds its matrix operands to a narrower float format; the reference runs three
  products and works on whole arrays. On the extended reals a change of float format is the identity and a product of
  matrices is the sum over the contracted coordinate whatever the tiling, so both sides are ONE function of the ten
  argument arrays, index by index: `Cert.Layer.normedAll` and `Cert.Layer.probsAll`. No law that needs finiteness is
  used: the two sides spell the same operations on the same entries, and only the layout differs.

  Frames: each kernel program runs to the end without a fault and leaves its arguments as launched
  (`Cert.Kernel.Around.frame`, `Cert.KernelIdeal.Around.frame`: the body run symbolically at a generic grid point and
  the launch theorem for a region between host lines); the reference's frame is its run with the results dropped.
  The idealization rewrote nothing, so there is nothing to preserve.
-/
import proofs.«106989_j55602646614549_2_alg».proof.Defs
import proofs.«106989_j55602646614549_2_alg».proof.Proof.Gen.Kernel
import proofs.«106989_j55602646614549_2_alg».proof.Proof.Gen.KernelIdeal
import proofs.«106989_j55602646614549_2_alg».proof.Proof.Gen.ReferenceIdeal
import proofs.«106989_j55602646614549_2_alg».proof.Proof.Gen.Pre_finite_inputs
import proofs.«106989_j55602646614549_2_alg».proof.Proof.Gen.ReferenceIdeal.Run
import proofs.«106989_j55602646614549_2_alg».proof.Proof.Gen.ReferenceIdeal.Read
import proofs.«106989_j55602646614549_2_alg».proof.Proof.KernelAround
import proofs.«106989_j55602646614549_2_alg».proof.Proof.KernelValue
import proofs.«106989_j55602646614549_2_alg».proof.Proof.RefLayer
import Idealize.ShloMosaic.Adequacy
import Idealize.ShloMosaic.Init

set_option maxRecDepth 16384

noncomputable section

namespace Cert.Proof

open Idealize.ShloMosaic Idealize.ShloMosaic.TcCoe Idealize.SL.Sem Cert.Layer

/-- The word-level kernel program runs and leaves its arguments unchanged. -/
theorem frame_kernel : Cert.frame_Kernel := fun m ρ _ => Cert.Kernel.Around.frame m ρ

/-- So does the idealized one. -/
theorem frame_kernelIdeal : Cert.frame_KernelIdeal := fun m ρ _ => Cert.KernelIdeal.Around.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the normalised rows and the probabilities of every
    batch element: the kernel by its blocks, the reference stage by stage. -/
theorem algebraic : Cert.algebraic_KernelIdeal_ReferenceIdeal := by
  intro m ρ m' ρ' _ hagree
  refine ⟨fun c => normedAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => probsAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Valued.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9⟩ := hagree c
    rw [(h c).1, Cert.ReferenceIdeal.Read.val_main_v56_eq, Cert.ReferenceIdeal.Layered.normed_eq, a0, a1, a2, a3, a4, a5, a6, a7, a8, a9]
  · obtain ⟨a0, a1, a2, a3, a4, a5, a6, a7, a8, a9⟩ := hagree c
    rw [(h c).2.1, Cert.ReferenceIdeal.Read.val_main_v30_eq, Cert.ReferenceIdeal.Layered.probs_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
